-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S1x128 : Shape := ⟨2, ![1, 128]⟩
abbrev S1 : Shape := ⟨1, ![1]⟩
abbrev S64x32 : Shape := ⟨2, ![64, 32]⟩
abbrev S1x32 : Shape := ⟨2, ![1, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S64x32 : S_.BroadcastsInDim S64x32 (![] : Fin 0 → Fin S64x32.rank)
  reducesTo_S64x32_S_d0_1 : S64x32.ReducesTo [0, 1] S_
  bcast_S_S1x32 : S_.BroadcastsInDim S1x32 (![] : Fin 0 → Fin S1x32.rank)
  reducesTo_S1x32_S_d0_1 : S1x32.ReducesTo [0, 1] S_

variable [Facts]

def fn_part5 {F : FTy → Type} [FloatOps F] (main_arg19 : FVec F S64 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg15 : FVec F S64 .f32) (main_arg16 : FVec F S1x32 .f32) (main_arg17 : FVec F S1 .f32) (main_arg18 : FVec F S64x32 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x32 .f32 := Host.absf main_arg16
  let main_cst_28 : FVec F S_ .f32 := constant S_ .f32 0x7F800000#32
  let main_v75 : FVec F S1x32 .f32 := broadcastInDim S1x32 ![] bcast_S_S1x32 main_cst_28
  let main_v76 : IVec S1x32 1 := cmpf .olt main_v74 main_v75
  let main_c_29 : IVec S_ 1 := constantI S_ 1 1#1
  let main_v77 : IVec S_ 1 := (fun x v => Host.reduce IntOp.andi x v reducesTo_S1x32_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64x32 .f32) (main_arg13 : FVec F S64 .f32) (main_arg14 : FVec F S64x32 .f32) (main_arg15 : FVec F S64 .f32) (main_arg16 : FVec F S1x32 .f32) (main_arg17 : FVec F S1 .f32) (main_arg18 : FVec F S64x32 .f32) (main_arg19 : FVec F S64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_arg18 main_arg19 main_v63 main_v67

def fn_part2 {F : FTy → Type} [FloatOps F] (main_arg8 : FVec F S1x128 .f32) (main_arg9 : FVec F S1 .f32) (main_arg10 : FVec F S32x128 .f32) (main_arg11 : FVec F S32 .f32) (main_arg12 : FVec F S64x32 .f32) (main_arg13 : FVec F S64 .f32) (main_arg14 : FVec F S64x32 .f32) (main_arg15 : FVec F S64 .f32) (main_arg16 : FVec F S1x32 .f32) (main_arg17 : FVec F S1 .f32) (main_arg18 : FVec F S64x32 .f32) (main_arg19 : FVec F S64 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S32x128 .f32 := Host.absf main_arg10
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_v48 main_v49 main_v50

def fn_part1 {F : FTy → Type} [FloatOps F] (main_arg5 : FVec F S32 .f32) (main_arg6 : FVec F S32x128 .f32) (main_arg7 : FVec F S32 .f32) (main_arg8 : FVec F S1x128 .f32) (main_arg9 : FVec F S1 .f32) (main_arg10 : FVec F S32x128 .f32) (main_arg11 : FVec F S32 .f32) (main_arg12 : FVec F S64x32 .f32) (main_arg13 : FVec F S64 .f32) (main_arg14 : FVec F S64x32 .f32) (main_arg15 : FVec F S64 .f32) (main_arg16 : FVec F S1x32 .f32) (main_arg17 : FVec F S1 .f32) (main_arg18 : FVec F S64x32 .f32) (main_arg19 : FVec F S64 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S64x128 .f32) (main_arg3 : FVec F S64 .f32) (main_arg4 : FVec F S32x128 .f32) (main_arg5 : FVec F S32 .f32) (main_arg6 : FVec F S32x128 .f32) (main_arg7 : FVec F S32 .f32) (main_arg8 : FVec F S1x128 .f32) (main_arg9 : FVec F S1 .f32) (main_arg10 : FVec F S32x128 .f32) (main_arg11 : FVec F S32 .f32) (main_arg12 : FVec F S64x32 .f32) (main_arg13 : FVec F S64 .f32) (main_arg14 : FVec F S64x32 .f32) (main_arg15 : FVec F S64 .f32) (main_arg16 : FVec F S1x32 .f32) (main_arg17 : FVec F S1 .f32) (main_arg18 : FVec F S64x32 .f32) (main_arg19 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S1x128 : Shape := ⟨2, ![1, 128]⟩
abbrev S1 : Shape := ⟨1, ![1]⟩
abbrev S64x32 : Shape := ⟨2, ![64, 32]⟩
abbrev S1x32 : Shape := ⟨2, ![1, 32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x32 : Shape := ⟨2, ![100000, 32]⟩
abbrev S5000x128 : Shape := ⟨2, ![5000, 128]⟩
abbrev S5000x32 : Shape := ⟨2, ![5000, 32]⟩
abbrev S128x32 : Shape := ⟨2, ![128, 32]⟩
abbrev S128 : Shape := ⟨1, ![128]⟩
abbrev S5000 : Shape := ⟨1, ![5000]⟩
abbrev S5000x1 : Shape := ⟨2, ![5000, 1]⟩
abbrev S1600000x32 : Shape := ⟨2, ![1600000, 32]⟩
abbrev S100000x64 : Shape := ⟨2, ![100000, 64]⟩
abbrev S5000x64 : Shape := ⟨2, ![5000, 64]⟩
abbrev S32x64 : Shape := ⟨2, ![32, 64]⟩
abbrev S1x64 : Shape := ⟨2, ![1, 64]⟩

abbrev nBuf : Space → Nat
  | .hbm => 68
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S32x128, .f32⟩
  | .hbm, ⟨5, _⟩ => ⟨S32, .f32⟩
  | .hbm, ⟨6, _⟩ => ⟨S32x128, .f32⟩
  | .hbm, ⟨7, _⟩ => ⟨S32, .f32⟩
  | .hbm, ⟨8, _⟩ => ⟨S1x128, .f32⟩
  | .hbm, ⟨9, _⟩ => ⟨S1, .f32⟩
  | .hbm, ⟨10, _⟩ => ⟨S32x128, .f32⟩
  | .hbm, ⟨11, _⟩ => ⟨S32, .f32⟩
  | .hbm, ⟨12, _⟩ => ⟨S64x32, .f32⟩
  | .hbm, ⟨13, _⟩ => ⟨S64, .f32⟩
  | .hbm, ⟨14, _⟩ => ⟨S64x32, .f32⟩
  | .hbm, ⟨15, _⟩ => ⟨S64, .f32⟩
  | .hbm, ⟨16, _⟩ => ⟨S1x32, .f32⟩
  | .hbm, ⟨17, _⟩ => ⟨S1, .f32⟩
  | .hbm, ⟨18, _⟩ => ⟨S64x32, .f32⟩
  | .hbm, ⟨19, _⟩ => ⟨S64, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x32, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x32, .f32⟩
  | .hbm, ⟨60, _⟩ => ⟨S_, .f32⟩
  | .hbm, ⟨61, _⟩ => ⟨S100000x32, .f32⟩
  | .hbm, ⟨62, _⟩ => ⟨S1600000x1, .i32⟩
  | .hbm, ⟨63, _⟩ => ⟨S100000x32, .f32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S32x128, .f32⟩
  | .local _ .vmem, ⟨5, _⟩ => ⟨S32, .f32⟩
  | .local _ .vmem, ⟨6, _⟩ => ⟨S32x128, .f32⟩
  | .local _ .vmem, ⟨7, _⟩ => ⟨S32, .f32⟩
  | .local _ .vmem, ⟨8, _⟩ => ⟨S1x128, .f32⟩
  | .local _ .vmem, ⟨9, _⟩ => ⟨S1, .f32⟩
  | .local _ .vmem, ⟨10, _⟩ => ⟨S32x128, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S64x32, .f32⟩
  | .local _ .vmem, ⟨19, _⟩ => ⟨S64, .f32⟩
  | .local _ .vmem, ⟨20, _⟩ => ⟨S64x32, .f32⟩
  | .local _ .vmem, ⟨21, _⟩ => ⟨S64, .f32⟩
  | .local _ .vmem, ⟨22, _⟩ => ⟨S1x32, .f32⟩
  | .local _ .vmem, ⟨23, _⟩ => ⟨S1, .f32⟩
  | .local _ .vmem, ⟨24, _⟩ => ⟨S64x32, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1_S1_0 : ∀ a, (![0] : Fin 1 → Nat) a + S1.size a ≤ S1.size a
  h_S1 : 0 < S1.numel
  inpos_S1_p0 : ∀ a, (![0] : Fin 1 → Nat) a < S1.size a
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S5000x32_S5000x32 : S5000x32.ShapeCasts S5000x32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x32_S1x32_0_0 : ∀ a, (![0, 0] : Fin 2 → Nat) a + S1x32.size a ≤ S1x32.size a
  h_S1x32 : 0 < S1x32.numel
  shapeCasts_S1x32_S32 : S1x32.ShapeCasts S32
  reduces_S5000x32_S5000 : S5000x32.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x32.size a ≤ S100000x32.size a
  hwx0_10 : ∀ i : grid0.Coords, EltTy.bits .f32 = 32 ∨ (Rect.block (s := S100000x32) S5000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x32.size a ≤ S64x32.size a
  hwx1_8 : ∀ i : grid1.Coords, EltTy.bits .f32 = 32 ∨ (Rect.block (s := S64x32) S64x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S5000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v24) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S64x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S32x128 : Shape := ⟨2, ![32, 128]⟩
abbrev S32 : Shape := ⟨1, ![32]⟩
abbrev S1x128 : Shape := ⟨2, ![1, 128]⟩
abbrev S1 : Shape := ⟨1, ![1]⟩
abbrev S64x32 : Shape := ⟨2, ![64, 32]⟩
abbrev S1x32 : Shape := ⟨2, ![1, 32]⟩
abbrev S1x1600000 : Shape := ⟨2, ![1, 1600000]⟩
abbrev S1600000 : Shape := ⟨1, ![1600000]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x32 : Shape := ⟨2, ![128, 32]⟩
abbrev S100000x32 : Shape := ⟨2, ![100000, 32]⟩
abbrev S128x1 : Shape := ⟨2, ![128, 1]⟩
abbrev S1x1 : Shape := ⟨2, ![1, 1]⟩
abbrev S1600000x32 : Shape := ⟨2, ![1600000, 32]⟩
abbrev S32x64 : Shape := ⟨2, ![32, 64]⟩
abbrev S32x1 : Shape := ⟨2, ![32, 1]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S32x128, .f32⟩
  | 5 => ⟨S32, .f32⟩
  | 6 => ⟨S32x128, .f32⟩
  | 7 => ⟨S32, .f32⟩
  | 8 => ⟨S1x128, .f32⟩
  | 9 => ⟨S1, .f32⟩
  | 10 => ⟨S32x128, .f32⟩
  | 11 => ⟨S32, .f32⟩
  | 12 => ⟨S64x32, .f32⟩
  | 13 => ⟨S64, .f32⟩
  | 14 => ⟨S64x32, .f32⟩
  | 15 => ⟨S64, .f32⟩
  | 16 => ⟨S1x32, .f32⟩
  | 17 => ⟨S1, .f32⟩
  | 18 => ⟨S64x32, .f32⟩
  | 19 => ⟨S64, .f32⟩
  | 20 => ⟨S1x1600000, .i32⟩
  | 21 => ⟨S1600000, .i32⟩
  | 22 => ⟨S1x1600000, .i32⟩
  | 23 => ⟨S1600000, .i32⟩
  | 24 => ⟨S128x64, .f32⟩
  | 25 => ⟨S100000x64, .f32⟩
  | 26 => ⟨S1x64, .f32⟩
  | 27 => ⟨S100000x64, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S100000x128, .f32⟩
  | 43 => ⟨S_, .f32⟩
  | 44 => ⟨S1600000, .f32⟩
  | 45 => ⟨S_, .f32⟩
  | 46 => ⟨S100000, .f32⟩
  | 47 => ⟨S1600000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S128x32, .f32⟩
  | 56 => ⟨S100000x32, .f32⟩
  | 57 => ⟨S1x32, .f32⟩
  | 58 => ⟨S100000x32, .f32⟩
  | 59 => ⟨S100000x32, .f32⟩
  | 60 => ⟨S128x32, .f32⟩
  | 61 => ⟨S100000x32, .f32⟩
  | 62 => ⟨S1x32, .f32⟩
  | 63 => ⟨S100000x32, .f32⟩
  | 64 => ⟨S100000x32, .f32⟩
  | 65 => ⟨S128x1, .f32⟩
  | 66 => ⟨S100000x1, .f32⟩
  | 67 => ⟨S1x1, .f32⟩
  | 68 => ⟨S100000x1, .f32⟩
  | 69 => ⟨S100000x1, .f32⟩
  | 70 => ⟨S100000x1, .f32⟩
  | 71 => ⟨S100000x1, .f32⟩
  | 72 => ⟨S_, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S100000x32, .f32⟩
  | 79 => ⟨S100000x32, .f32⟩
  | 80 => ⟨S_, .f32⟩
  | 81 => ⟨S100000x1, .f32⟩
  | 82 => ⟨S100000x1, .f32⟩
  | 83 => ⟨S100000x32, .f32⟩
  | 84 => ⟨S100000x32, .f32⟩
  | 85 => ⟨S100000x32, .f32⟩
  | 86 => ⟨S_, .f32⟩
  | 87 => ⟨S100000x32, .f32⟩
  | 88 => ⟨S100000x32, .f32⟩
  | 89 => ⟨S128x32, .f32⟩
  | 90 => ⟨S100000x32, .f32⟩
  | 91 => ⟨S1x32, .f32⟩
  | 92 => ⟨S100000x32, .f32⟩
  | 93 => ⟨S100000x32, .f32⟩
  | 94 => ⟨S100000x32, .f32⟩
  | 95 => ⟨S_, .f32⟩
  | 96 => ⟨S100000x32, .f32⟩
  | 97 => ⟨S100000x32, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x32, .f32⟩
  | 107 => ⟨S_, .f32⟩
  | 108 => ⟨S100000x32, .f32⟩
  | 109 => ⟨S1600000x1, .i32⟩
  | 110 => ⟨S100000x32, .f32⟩
  | 111 => ⟨S100000x32, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x32, .f32⟩
  | 123 => ⟨S100000x32, .f32⟩
  | 124 => ⟨S32x64, .f32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S32x64, .f32⟩
  | 2 => ⟨S100000x64, .f32⟩
  | 3 => ⟨S1x64, .f32⟩
  | 4 => ⟨S100000x64, .f32⟩
  | 5 => ⟨S100000x64, .f32⟩
  | 6 => ⟨S32x1, .f32⟩
  | 7 => ⟨S100000x1, .f32⟩
  | 8 => ⟨S1x1, .f32⟩
  | 9 => ⟨S100000x1, .f32⟩
  | 10 => ⟨S100000x1, .f32⟩
  | 11 => ⟨S100000x1, .f32⟩
  | 12 => ⟨S100000x1, .f32⟩
  | 13 => ⟨S_, .f32⟩
  | 14 => ⟨S100000x1, .f32⟩
  | 15 => ⟨S100000x1, .f32⟩
  | 16 => ⟨S_, .f32⟩
  | 17 => ⟨S100000x1, .f32⟩
  | 18 => ⟨S100000x1, .f32⟩
  | 19 => ⟨S100000x64, .f32⟩
  | 20 => ⟨S100000x64, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S32x64, .f32⟩
  | 31 => ⟨S100000x64, .f32⟩
  | 32 => ⟨S1x64, .f32⟩
  | 33 => ⟨S100000x64, .f32⟩
  | 34 => ⟨S100000x64, .f32⟩
  | 35 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call0_cst : Ref sig .tc := ⟨.hbm, 86, rfl⟩
abbrev main_call0_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call1_cst : Ref sig .tc := ⟨.hbm, 95, rfl⟩
abbrev main_call1_v0 : Ref sig .tc := ⟨.hbm, 96, rfl⟩
abbrev main_v64 : Ref sig .tc := ⟨.hbm, 97, rfl⟩
abbrev main_c_7 : Ref sig .tc := ⟨.hbm, 98, rfl⟩
abbrev main_v65 : Ref sig .tc := ⟨.hbm, 99, rfl⟩
abbrev main_v66 : Ref sig .tc := ⟨.hbm, 100, rfl⟩
abbrev main_c_8 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_9 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_10 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_12 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_13 : Ref sig .tc := ⟨.hbm, 141, rfl⟩
abbrev main_v102 : Ref sig .tc := ⟨.hbm, 142, rfl⟩
abbrev main_v103 : Ref sig .tc := ⟨.hbm, 143, rfl⟩
abbrev main_cst_14 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_15 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call2_cst : Ref sig .tc := ⟨.hbm, 155, rfl⟩
abbrev main_call2_v0 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  transposes_S64x32_S32x64_1_0 : S64x32.Transposes [1, 0] S32x64
  transposes_S1x32_S32x1_1_0 : S1x32.Transposes [1, 0] S32x1
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  dot_S100000x128_S128x1_S100000x1_1_0_0_1_n_n_wf : DotDims.WF S100000x128 S128x1 S100000x1 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel's run, read at every buffer that lives for the whole program.

  The program is four segments: host operations, the first layer's pipelined region, host operations, the second
  layer's region. The contents of the buffers at each boundary are a fold from the launch memory; this module states the
  run with the last boundary's contents named at every such buffer: the two result arrays are read out of it later.
-/
import proofs.«157271_j89601607729377_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every whole-program buffer of every core at the last
    boundary's contents. -/
theorem run_last : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.KRun

end
-- ==== Proof.KFold.lean ====
/-
  The contents of the buffers the two regions read and write, traced through the program.

  The first region is entered after the first stretch of host operations, which writes none of the argument arrays; the
  second after the second stretch, which writes neither an argument array nor the first layer's result. A region leaves
  every array but its own result as it found it. So the first region reads the arguments as launched, the second reads
  the later arguments as launched and the first layer's result as the first region left it, and the program's two
  results are what the two regions leave in their result arrays.
-/
import proofs.«157271_j89601607729377_1_alg».proof.Proof.Gen.KernelIdeal.Frame

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The first stretch and the second stretch leave these buffers alone -/

/-- The first region finds argument 0 as launched. -/
theorem V1_arg0 (c : Dev nD) : V1 m ρ c main_arg0 = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

/-- The first region finds argument 4 as launched. -/
theorem V1_arg4 (c : Dev nD) : V1 m ρ c main_arg4 = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

/-- The first region finds argument 5 as launched. -/
theorem V1_arg5 (c : Dev nD) : V1 m ρ c main_arg5 = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

/-- The first region finds argument 6 as launched. -/
theorem V1_arg6 (c : Dev nD) : V1 m ρ c main_arg6 = m ((c : Thread nD τ).loc main_arg6) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6))

/-- The first region finds argument 7 as launched. -/
theorem V1_arg7 (c : Dev nD) : V1 m ρ c main_arg7 = m ((c : Thread nD τ).loc main_arg7) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg7) = W0 m ρ c (Proc.devRef .tc main_arg7))

/-- The first region finds argument 8 as launched. -/
theorem V1_arg8 (c : Dev nD) : V1 m ρ c main_arg8 = m ((c : Thread nD τ).loc main_arg8) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg8) = W0 m ρ c (Proc.devRef .tc main_arg8))

/-- The first region finds argument 9 as launched. -/
theorem V1_arg9 (c : Dev nD) : V1 m ρ c main_arg9 = m ((c : Thread nD τ).loc main_arg9) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg9) = W0 m ρ c (Proc.devRef .tc main_arg9))

/-- The first region finds argument 10 as launched. -/
theorem V1_arg10 (c : Dev nD) : V1 m ρ c main_arg10 = m ((c : Thread nD τ).loc main_arg10) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg10) = W0 m ρ c (Proc.devRef .tc main_arg10))

/-- The first region finds argument 11 as launched. -/
theorem V1_arg11 (c : Dev nD) : V1 m ρ c main_arg11 = m ((c : Thread nD τ).loc main_arg11) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg11) = W0 m ρ c (Proc.devRef .tc main_arg11))

/-- The second region finds argument 12 as launched. -/
theorem V3_arg12 (c : Dev nD) : V3 m ρ c main_arg12 = m ((c : Thread nD τ).loc main_arg12) :=
  calc W3 m ρ c (Proc.devRef .tc main_arg12)
    _ = W2 m ρ c (Proc.devRef .tc main_arg12) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

/-- The second region finds argument 13 as launched. -/
theorem V3_arg13 (c : Dev nD) : V3 m ρ c main_arg13 = m ((c : Thread nD τ).loc main_arg13) :=
  calc W3 m ρ c (Proc.devRef .tc main_arg13)
    _ = W2 m ρ c (Proc.devRef .tc main_arg13) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

/-- The second region finds argument 14 as launched. -/
theorem V3_arg14 (c : Dev nD) : V3 m ρ c main_arg14 = m ((c : Thread nD τ).loc main_arg14) :=
  calc W3 m ρ c (Proc.devRef .tc main_arg14)
    _ = W2 m ρ c (Proc.devRef .tc main_arg14) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl

/-- The second region finds argument 15 as launched. -/
theorem V3_arg15 (c : Dev nD) : V3 m ρ c main_arg15 = m ((c : Thread nD τ).loc main_arg15) :=
  calc W3 m ρ c (Proc.devRef .tc main_arg15)
    _ = W2 m ρ c (Proc.devRef .tc main_arg15) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg15) := rfl

/-- The second region finds argument 16 as launched. -/
theorem V3_arg16 (c : Dev nD) : V3 m ρ c main_arg16 = m ((c : Thread nD τ).loc main_arg16) :=
  calc W3 m ρ c (Proc.devRef .tc main_arg16)
    _ = W2 m ρ c (Proc.devRef .tc main_arg16) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg16) := rfl

/-- The second region finds argument 17 as launched. -/
theorem V3_arg17 (c : Dev nD) : V3 m ρ c main_arg17 = m ((c : Thread nD τ).loc main_arg17) :=
  calc W3 m ρ c (Proc.devRef .tc main_arg17)
    _ = W2 m ρ c (Proc.devRef .tc main_arg17) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg17) := rfl

/-- The second region finds argument 18 as launched. -/
theorem V3_arg18 (c : Dev nD) : V3 m ρ c main_arg18 = m ((c : Thread nD τ).loc main_arg18) :=
  calc W3 m ρ c (Proc.devRef .tc main_arg18)
    _ = W2 m ρ c (Proc.devRef .tc main_arg18) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg18) := rfl

/-- The second region finds argument 19 as launched. -/
theorem V3_arg19 (c : Dev nD) : V3 m ρ c main_arg19 = m ((c : Thread nD τ).loc main_arg19) :=
  calc W3 m ρ c (Proc.devRef .tc main_arg19)
    _ = W2 m ρ c (Proc.devRef .tc main_arg19) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg19) := rfl

/-- The second region finds, in the first layer's result array, what the first region left there. -/
theorem V3_v24 (c : Dev nD) : V3 m ρ c main_v24 = (dat0 (V1 m ρ) c).arrAt 10 cfg0.N :=
  calc W3 m ρ c (Proc.devRef .tc main_v24)
    _ = W2 m ρ c (Proc.devRef .tc main_v24) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 10 cfg0.N := W2_arr m ρ c 10

/-! ## The two results at the end -/

/-- The second result is what the second region leaves in its result array. -/
theorem last_v38 (c : Dev nD) : W4 m ρ c (Proc.devRef .tc main_v38) = (dat1 (V3 m ρ) c).arrAt 10 cfg1.N :=
  W4_arr m ρ c 10

/-- The first result, an input of the second region, ends as the first region left it. -/
theorem last_v24 (c : Dev nD) : W4 m ρ c (Proc.devRef .tc main_v24) = (dat0 (V1 m ρ) c).arrAt 10 cfg0.N :=
  ((W4_arr m ρ c 0).trans (((dat1 (V3 m ρ) c).arrAt_in 0 rfl _).trans (A_eq1 (V3 m ρ) c 0))).trans (V3_v24 m ρ c)

end Cert.KernelIdeal.KFold

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«157271_j89601607729377_1_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibGatedLayer.lean ====
/-
  A gated two-branch graph-convolution update, entry by entry on the extended reals, for any extents.

  A node's row `X r` of width `K` and its neighbourhood mean `A r` are sent through three dense maps with weights stored one
  row per output unit (`[N, K]`) and a bias vector `[N]`: a "first" and a "second" branch of the mean, and a map of the node's
  own row. A scalar gate per node is the logistic function of the inner product of `X r` with one weight row `[1, K]` plus
  a bias `[1]`. Entry `(r, g)` of the update is

      self r g + max (first r g · gate r + second r g · (1 − gate r)) 0,

  with `1` and `0` the f32 words of 1.0 and 0.0 read on the extended reals. `updRelu` rectifies the update once more.
  The module imports no program: these are the functions both a kernel body's tile and a host program's arrays are read
  against.
-/
import Idealize.ShloMosaic.PureOps.Ideal
import Idealize.ShloMosaic.Lib.ValueIdx

noncomputable section

open scoped BigOperators

namespace Cert.LibGatedLayer

open Idealize.ShloMosaic Idealize.ShloMosaic.ValueIdx

variable {R K N : ℕ}

/-- The f32 word of 1.0 on the extended reals. -/
abbrev oneW : EReal := Ideal.ofBits .f32 0x3F800000#32
/-- The f32 word of 0.0 on the extended reals. -/
abbrev zeroW : EReal := Ideal.ofBits .f32 0x00000000#32

/-- A dense map at entry `(r, g)`: the inner product of row `r` of `A` with row `g` of `W`, plus the bias at `g`. -/
def denseAt (A : (⟨2, ![R, K]⟩ : Shape).Idx → EReal) (W : (⟨2, ![N, K]⟩ : Shape).Idx → EReal)
    (b : (⟨1, ![N]⟩ : Shape).Idx → EReal) (r : Fin R) (g : Fin N) : EReal :=
  (∑ k : Fin K, A (ix2 r k) * W (ix2 g k)) + b (ix1 g)

/-- The pre-activation of the gate at node `r`: the inner product of row `r` of `X` with the one weight row, plus its bias. -/
def gateLogitAt (X : (⟨2, ![R, K]⟩ : Shape).Idx → EReal) (w : (⟨2, ![1, K]⟩ : Shape).Idx → EReal)
    (b : (⟨1, ![1]⟩ : Shape).Idx → EReal) (r : Fin R) : EReal :=
  (∑ k : Fin K, X (ix2 r k) * w (ix2 (0 : Fin 1) k)) + b (ix1 (0 : Fin 1))

/-- The gate at node `r`. -/
def gateAt (X : (⟨2, ![R, K]⟩ : Shape).Idx → EReal) (w : (⟨2, ![1, K]⟩ : Shape).Idx → EReal)
    (b : (⟨1, ![1]⟩ : Shape).Idx → EReal) (r : Fin R) : EReal :=
  Ideal.logistic (gateLogitAt X w b r)

/-- The update at entry `(r, g)`. -/
def updAt (X A : (⟨2, ![R, K]⟩ : Shape).Idx → EReal)
    (Wfr : (⟨2, ![N, K]⟩ : Shape).Idx → EReal) (bfr : (⟨1, ![N]⟩ : Shape).Idx → EReal)
    (Wbe : (⟨2, ![N, K]⟩ : Shape).Idx → EReal) (bbe : (⟨1, ![N]⟩ : Shape).Idx → EReal)
    (Wbal : (⟨2, ![1, K]⟩ : Shape).Idx → EReal) (bbal : (⟨1, ![1]⟩ : Shape).Idx → EReal)
    (Wself : (⟨2, ![N, K]⟩ : Shape).Idx → EReal) (bself : (⟨1, ![N]⟩ : Shape).Idx → EReal)
    (r : Fin R) (g : Fin N) : EReal :=
  denseAt X Wself bself r g
    + max (denseAt A Wfr bfr r g * gateAt X Wbal bbal r + denseAt A Wbe bbe r g * (oneW - gateAt X Wbal bbal r)) zeroW

/-- The update as a whole `[R, N]` array. -/
def upd (X A : (⟨2, ![R, K]⟩ : Shape).Idx → EReal)
    (Wfr : (⟨2, ![N, K]⟩ : Shape).Idx → EReal) (bfr : (⟨1, ![N]⟩ : Shape).Idx → EReal)
    (Wbe : (⟨2, ![N, K]⟩ : Shape).Idx → EReal) (bbe : (⟨1, ![N]⟩ : Shape).Idx → EReal)
    (Wbal : (⟨2, ![1, K]⟩ : Shape).Idx → EReal) (bbal : (⟨1, ![1]⟩ : Shape).Idx → EReal)
    (Wself : (⟨2, ![N, K]⟩ : Shape).Idx → EReal) (bself : (⟨1, ![N]⟩ : Shape).Idx → EReal) :
    (⟨2, ![R, N]⟩ : Shape).Idx → EReal :=
  fun i => updAt X A Wfr bfr Wbe bbe Wbal bbal Wself bself (i 0) (i 1)

/-- The rectified update as a whole `[R, N]` array. -/
def updRelu (X A : (⟨2, ![R, K]⟩ : Shape).Idx → EReal)
    (Wfr : (⟨2, ![N, K]⟩ : Shape).Idx → EReal) (bfr : (⟨1, ![N]⟩ : Shape).Idx → EReal)
    (Wbe : (⟨2, ![N, K]⟩ : Shape).Idx → EReal) (bbe : (⟨1, ![N]⟩ : Shape).Idx → EReal)
    (Wbal : (⟨2, ![1, K]⟩ : Shape).Idx → EReal) (bbal : (⟨1, ![1]⟩ : Shape).Idx → EReal)
    (Wself : (⟨2, ![N, K]⟩ : Shape).Idx → EReal) (bself : (⟨1, ![N]⟩ : Shape).Idx → EReal) :
    (⟨2, ![R, N]⟩ : Shape).Idx → EReal :=
  fun i => max (updAt X A Wfr bfr Wbe bbe Wbal bbal Wself bself (i 0) (i 1)) zeroW

/-- An entry of the update reads one row of `X` and one row of `A`: two pairs of arrays, of any two heights, that agree on
    the rows read give the same entry. -/
theorem updAt_congr {R' : ℕ} {X A : (⟨2, ![R, K]⟩ : Shape).Idx → EReal} {X' A' : (⟨2, ![R', K]⟩ : Shape).Idx → EReal}
    (Wfr : (⟨2, ![N, K]⟩ : Shape).Idx → EReal) (bfr : (⟨1, ![N]⟩ : Shape).Idx → EReal)
    (Wbe : (⟨2, ![N, K]⟩ : Shape).Idx → EReal) (bbe : (⟨1, ![N]⟩ : Shape).Idx → EReal)
    (Wbal : (⟨2, ![1, K]⟩ : Shape).Idx → EReal) (bbal : (⟨1, ![1]⟩ : Shape).Idx → EReal)
    (Wself : (⟨2, ![N, K]⟩ : Shape).Idx → EReal) (bself : (⟨1, ![N]⟩ : Shape).Idx → EReal)
    (r : Fin R) (r' : Fin R') (g : Fin N) (hX : ∀ k : Fin K, X (ix2 r k) = X' (ix2 r' k))
    (hA : ∀ k : Fin K, A (ix2 r k) = A' (ix2 r' k)) :
    updAt X A Wfr bfr Wbe bbe Wbal bbal Wself bself r g = updAt X' A' Wfr bfr Wbe bbe Wbal bbal Wself bself r' g := by
  unfold updAt gateAt gateLogitAt denseAt
  simp only [hX, hA]

/-- An entry of the update reads one row of `X` and of `A`, row `g` of each weight matrix and entry `g` of each bias, the
    gate's weight row and its bias: two families of arrays (node arrays of any two heights) that agree on what is read
    give the same entry. -/
theorem updAt_congr_all {R' : ℕ} {X A : (⟨2, ![R, K]⟩ : Shape).Idx → EReal} {X' A' : (⟨2, ![R', K]⟩ : Shape).Idx → EReal}
    {Wfr Wfr' : (⟨2, ![N, K]⟩ : Shape).Idx → EReal} {bfr bfr' : (⟨1, ![N]⟩ : Shape).Idx → EReal}
    {Wbe Wbe' : (⟨2, ![N, K]⟩ : Shape).Idx → EReal} {bbe bbe' : (⟨1, ![N]⟩ : Shape).Idx → EReal}
    {Wbal Wbal' : (⟨2, ![1, K]⟩ : Shape).Idx → EReal} {bbal bbal' : (⟨1, ![1]⟩ : Shape).Idx → EReal}
    {Wself Wself' : (⟨2, ![N, K]⟩ : Shape).Idx → EReal} {bself bself' : (⟨1, ![N]⟩ : Shape).Idx → EReal}
    (r : Fin R) (r' : Fin R') (g g' : Fin N)
    (hX : ∀ k : Fin K, X (ix2 r k) = X' (ix2 r' k)) (hA : ∀ k : Fin K, A (ix2 r k) = A' (ix2 r' k))
    (hWfr : ∀ k : Fin K, Wfr (ix2 g k) = Wfr' (ix2 g' k)) (hbfr : bfr (ix1 g) = bfr' (ix1 g'))
    (hWbe : ∀ k : Fin K, Wbe (ix2 g k) = Wbe' (ix2 g' k)) (hbbe : bbe (ix1 g) = bbe' (ix1 g'))
    (hWbal : ∀ k : Fin K, Wbal (ix2 (0 : Fin 1) k) = Wbal' (ix2 (0 : Fin 1) k))
    (hbbal : bbal (ix1 (0 : Fin 1)) = bbal' (ix1 (0 : Fin 1)))
    (hWself : ∀ k : Fin K, Wself (ix2 g k) = Wself' (ix2 g' k)) (hbself : bself (ix1 g) = bself' (ix1 g')) :
    updAt X A Wfr bfr Wbe bbe Wbal bbal Wself bself r g = updAt X' A' Wfr' bfr' Wbe' bbe' Wbal' bbal' Wself' bself' r' g' := by
  unfold updAt gateAt gateLogitAt denseAt
  simp only [hX, hA, hWfr, hbfr, hWbe, hbbe, hWbal, hbbal, hWself, hbself]

end Cert.LibGatedLayer

end
-- ==== Proof.LibGatedBody.lean ====
/-
  The gated update in a kernel body's spelling, read at an entry on the extended reals, for any extents.

  The body forms the gate's pre-activation as a lane sum of the node rows times one weight row repeated down the rows,
  kept as a column; adds a bias column; takes the logistic function; repeats the gate column (and one minus it) along the
  output columns; and combines three dense maps with it: self + max(first·gate + second·(1 − gate), 0). The lemmas here
  read the lane-sum column and the combination at an entry; the dense maps are read by the dense-row lemmas.
-/
import Idealize.ShloMosaic.Lib.Pipeline.Value
import Idealize.ShloMosaic.Lib.ValueIdx
import Idealize.ShloMosaic.Lib.ValueLayout
import Idealize.ShloMosaic.PureOps.Ideal.Laws
import proofs.«157271_j89601607729377_1_alg».proof.Proof.LibKeepdims
import proofs.«157271_j89601607729377_1_alg».proof.Proof.LibDenseRow
import proofs.«157271_j89601607729377_1_alg».proof.Proof.LibGatedLayer

noncomputable section

open scoped BigOperators

namespace Cert.LibGatedBody

open Idealize.ShloMosaic Idealize.ShloMosaic.ValueIdx Cert.LibGatedLayer

variable {R K N : ℕ}

/-- A `[1, K]` row cast to the vector `[K]` reads, at `k`, the row at `(0, k)`. -/
theorem rowVec_at {α : Type} (w : (⟨2, ![1, K]⟩ : Shape).Idx → α) (h : (⟨2, ![1, K]⟩ : Shape).ShapeCasts ⟨1, ![K]⟩)
    (k : Fin K) : shapeCast ⟨1, ![K]⟩ w h (ix1 k) = w (ix2 (0 : Fin 1) k) :=
  shapeCast_apply w h (ix1 k) (ix2 (0 : Fin 1) k) (by
    rw [Shape.rowMajor_val_two, Shape.rowMajor_val_one]
    show 0 * K + k.val = k.val
    omega)

/-- The gate's lane sum kept as a column: at `(r, u)` it is the inner product of row `r` with the weight row. -/
theorem gateSum_at (x : FVec Ideal ⟨2, ![R, K]⟩ .f32) (w : FVec Ideal ⟨2, ![1, K]⟩ .f32)
    (h1 : (⟨2, ![1, K]⟩ : Shape).ShapeCasts ⟨1, ![K]⟩) (h2 : (⟨1, ![K]⟩ : Shape).ShapeCasts ⟨2, ![1, K]⟩)
    (h3 : (⟨2, ![1, K]⟩ : Shape).Broadcasts ⟨2, ![R, K]⟩) (acc : BitVec (FTy.bits .f32))
    (hred : (⟨2, ![R, K]⟩ : Shape).Reduces [1] ⟨1, ![R]⟩) (hφ : FKind.Formats .f32) (hacc : acc = FKind.add.neutral .f32 hφ)
    (h4 : (⟨1, ![R]⟩ : Shape).ShapeCasts ⟨2, ![R, 1]⟩) (r : Fin R) (u : Fin 1) :
    shapeCast ⟨2, ![R, 1]⟩ (multiReduction .add [1] ⟨1, ![R]⟩
        (mulf x (broadcastTo ⟨2, ![R, K]⟩ (shapeCast ⟨2, ![1, K]⟩ (shapeCast ⟨1, ![K]⟩ w h1) h2) h3)) acc hred hφ hacc) h4 (ix2 r u)
      = ∑ d : Fin K, x (ix2 r d) * w (ix2 (0 : Fin 1) d) := by
  rw [Cert.LibKeepdims.shapeCast_a_a1_apply, Cert.LibKeepdims.multiReduction_add_rows]
  refine Finset.sum_congr rfl fun d _ => ?_
  rw [mulf_apply, Cert.LibDenseRow.biasRow_at, rowVec_at]

/-- The combination at an entry: given the three dense maps at `(r, g)`, the lane-sum column and the bias column at
    row `r`, the body's self + max(first·gate + second·(1 − gate), 0) is the update at `(r, g)`. -/
theorem combine_at (X A : (⟨2, ![R, K]⟩ : Shape).Idx → EReal)
    (Wfr : (⟨2, ![N, K]⟩ : Shape).Idx → EReal) (bfr : (⟨1, ![N]⟩ : Shape).Idx → EReal)
    (Wbe : (⟨2, ![N, K]⟩ : Shape).Idx → EReal) (bbe : (⟨1, ![N]⟩ : Shape).Idx → EReal)
    (Wbal : (⟨2, ![1, K]⟩ : Shape).Idx → EReal) (bbal : (⟨1, ![1]⟩ : Shape).Idx → EReal)
    (Wself : (⟨2, ![N, K]⟩ : Shape).Idx → EReal) (bself : (⟨1, ![N]⟩ : Shape).Idx → EReal)
    (fr be slf : FVec Ideal ⟨2, ![R, N]⟩ .f32) (gsum gb : FVec Ideal ⟨2, ![R, 1]⟩ .f32)
    (hbR : (⟨2, ![R, 1]⟩ : Shape).Broadcasts ⟨2, ![R, N]⟩) (r : Fin R) (g : Fin N)
    (hfr : fr (ix2 r g) = denseAt A Wfr bfr r g) (hbe : be (ix2 r g) = denseAt A Wbe bbe r g)
    (hs : slf (ix2 r g) = denseAt X Wself bself r g)
    (hg : gsum (ix2 r (0 : Fin 1)) = ∑ d : Fin K, X (ix2 r d) * Wbal (ix2 (0 : Fin 1) d))
    (hgb : gb (ix2 r (0 : Fin 1)) = bbal (ix1 (0 : Fin 1))) :
    addf slf (maximumf
        (addf (mulf fr (broadcastTo ⟨2, ![R, N]⟩ (logistic (addf gsum gb)) hbR))
          (mulf be (broadcastTo ⟨2, ![R, N]⟩
            (subf (broadcast ⟨2, ![R, 1]⟩ (Scalar.ofBits (F := Ideal) .f32 0x3F800000#32)) (logistic (addf gsum gb))) hbR)))
        (broadcast ⟨2, ![R, N]⟩ (Scalar.ofBits (F := Ideal) .f32 0x00000000#32))) (ix2 r g)
      = updAt X A Wfr bfr Wbe bbe Wbal bbal Wself bself r g := by
  rw [addf_apply, maximumf_apply, addf_apply, mulf_apply, mulf_apply, Cert.LibKeepdims.broadcastTo_a1_ab_apply,
    Cert.LibKeepdims.broadcastTo_a1_ab_apply, subf_apply, hfr, hbe, hs]
  show denseAt X Wself bself r g
      + max (denseAt A Wfr bfr r g * Ideal.logistic (gsum (ix2 r (0 : Fin 1)) + gb (ix2 r (0 : Fin 1)))
          + denseAt A Wbe bbe r g * (oneW - Ideal.logistic (gsum (ix2 r (0 : Fin 1)) + gb (ix2 r (0 : Fin 1))))) zeroW = _
  rw [hg, hgb]
  rfl

end Cert.LibGatedBody

end
-- ==== Proof.KPay.lean ====
/-
  The two kernel bodies' arithmetic, read at an entry of the output tile on the extended reals.

  Each body computes, from a tile of node rows, the tile of their neighbourhood means and the layer's weights, three
  dense maps (operands truncated to bf16, which changes nothing on the extended reals), the gate's lane sum and bias, and
  combines them into the gated update; the first layer rectifies the result once more. Entry (p, q) of the tile is the
  update at (p, q) of the tiles read as arrays of 5000 rows.
-/
import proofs.«157271_j89601607729377_1_alg».proof.Proof.Gen.KernelIdeal.Skeleton
import proofs.«157271_j89601607729377_1_alg».proof.Proof.LibGatedBody

noncomputable section

open scoped BigOperators

namespace Cert.KernelIdeal.KPay

open Cert.KernelIdeal Cert.KernelIdeal.Gen Idealize.ShloMosaic Idealize.ShloMosaic.ValueIdx Cert.LibGatedLayer

/-! ## Layer 0 -/

/-- The layer's matrix product is the plain one: rows against rows of the transposed weight. -/
theorem dot0_plain : dot_S5000x128_S128x32_S5000x32_1_0_0_1_n_n = DotDims.plain 5000 128 32 := rfl

/-- The first branch's dense map of the mean, at an entry. -/
theorem fr0_at (v1 : Vec Ideal S5000x128 .f32) (v5 : Vec Ideal S32x128 .f32) (v13 : Vec Ideal S32 .f32) (r : Fin 5000) (g : Fin 32) :
    k0_pay3 (F := Ideal) v1 v5 v13 (ix2 r g) = denseAt (R := 5000) (K := 128) (N := 32) v1 v5 v13 r g := by
  unfold k0_pay3 k0_pay2
  rw [dot0_plain]
  refine (Cert.LibDenseRow.dense_at none _ _ _ _ _ _ r g).trans ?_
  unfold denseAt
  simp only [truncf_apply, shapeCast_self]

/-- The second branch's dense map of the mean, at an entry. -/
theorem be0_at (v1 : Vec Ideal S5000x128 .f32) (v7 : Vec Ideal S32x128 .f32) (v19 : Vec Ideal S32 .f32) (r : Fin 5000) (g : Fin 32) :
    k0_pay4 (F := Ideal) v1 v7 v19 (ix2 r g) = denseAt (R := 5000) (K := 128) (N := 32) v1 v7 v19 r g := by
  unfold k0_pay4 k0_pay2
  rw [dot0_plain]
  refine (Cert.LibDenseRow.dense_at none _ _ _ _ _ _ r g).trans ?_
  unfold denseAt
  simp only [truncf_apply, shapeCast_self]

/-- The dense map of the node's own row, at an entry. -/
theorem self0_at (v0 : Vec Ideal S5000x128 .f32) (v9 : Vec Ideal S32x128 .f32) (v25 : Vec Ideal S32 .f32) (r : Fin 5000) (g : Fin 32) :
    k0_pay5 (F := Ideal) v0 v9 v25 (ix2 r g) = denseAt (R := 5000) (K := 128) (N := 32) v0 v9 v25 r g := by
  unfold k0_pay5
  rw [dot0_plain]
  refine (Cert.LibDenseRow.dense_at none _ _ _ _ _ _ r g).trans ?_
  unfold denseAt
  simp only [truncf_apply, shapeCast_self]

/-- The gate's lane sum, kept as a column, at a row. -/
theorem gsum0_at (v0 : Vec Ideal S5000x128 .f32) (v29 : Vec Ideal S1x128 .f32) (r : Fin 5000) (u : Fin 1) :
    k0_pay6 (F := Ideal) v0 v29 (ix2 r u) = ∑ d : Fin 128, v0 (ix2 r d) * v29 (ix2 (0 : Fin 1) d) := by
  unfold k0_pay6
  refine (Cert.LibGatedBody.gateSum_at _ v29 _ _ _ _ _ _ _ _ r u).trans ?_
  simp only [shapeCast_self]

/-- The gate's bias, repeated down a column, at a row. -/
theorem gb0_at (v36 : Vec Ideal S1 .f32) (r : Fin 5000) (u : Fin 1) : k0_pay7 (F := Ideal) v36 (ix2 r u) = v36 (ix1 (0 : Fin 1)) := by
  unfold k0_pay7
  show extractAt ![0] v36 _ = _
  unfold extractAt
  exact congrArg v36 (funext fun a => Fin.ext (by match a with | ⟨0, _⟩ => rfl))

/-- THE FIRST LAYER'S TILE at an entry: the rectified update of the tiles. -/
theorem tile0_at (x0 x1 : Vec Ideal S5000x128 .f32) (x2 : Vec Ideal S32x128 .f32) (x3 : Vec Ideal S32 .f32)
    (x4 : Vec Ideal S32x128 .f32) (x5 : Vec Ideal S32 .f32) (x6 : Vec Ideal S1x128 .f32) (x7 : Vec Ideal S1 .f32)
    (x8 : Vec Ideal S32x128 .f32) (x9 : Vec Ideal S32 .f32) (p : Fin 5000) (q : Fin 32) :
    k0_pay1 (F := Ideal) (k0_pay3 x1 x2 x3) (k0_pay4 x1 x4 x5) (k0_pay5 x0 x8 x9) (k0_pay6 x0 x6) (k0_pay7 x7) (ix2 p q)
      = max (updAt (R := 5000) (K := 128) (N := 32) x0 x1 x2 x3 x4 x5 x6 x7 x8 x9 p q) zeroW := by
  unfold k0_pay1
  refine congrArg (fun z : EReal => max z zeroW) ?_
  exact Cert.LibGatedBody.combine_at (R := 5000) (K := 128) (N := 32) x0 x1 x2 x3 x4 x5 x6 x7 x8 x9 _ _ _ _ _ _ p q
    (fr0_at x1 x2 x3 p q) (be0_at x1 x4 x5 p q) (self0_at x0 x8 x9 p q) (gsum0_at x0 x6 p 0) (gb0_at x7 p 0)

/-- The same at any index of the tile. -/
theorem tile0_at' (x0 x1 : Vec Ideal S5000x128 .f32) (x2 : Vec Ideal S32x128 .f32) (x3 : Vec Ideal S32 .f32)
    (x4 : Vec Ideal S32x128 .f32) (x5 : Vec Ideal S32 .f32) (x6 : Vec Ideal S1x128 .f32) (x7 : Vec Ideal S1 .f32)
    (x8 : Vec Ideal S32x128 .f32) (x9 : Vec Ideal S32 .f32) (j : S5000x32.Idx) :
    k0_pay1 (F := Ideal) (k0_pay3 x1 x2 x3) (k0_pay4 x1 x4 x5) (k0_pay5 x0 x8 x9) (k0_pay6 x0 x6) (k0_pay7 x7) j
      = max (updAt (R := 5000) (K := 128) (N := 32) x0 x1 x2 x3 x4 x5 x6 x7 x8 x9 (j 0) (j 1)) zeroW := by
  exact (congrArg (k0_pay1 (F := Ideal) (k0_pay3 x1 x2 x3) (k0_pay4 x1 x4 x5) (k0_pay5 x0 x8 x9) (k0_pay6 x0 x6) (k0_pay7 x7)) (eq_ix2 j)).trans
    (tile0_at x0 x1 x2 x3 x4 x5 x6 x7 x8 x9 (j 0) (j 1))

/-! ## Layer 1 -/

/-- The layer's matrix product is the plain one: rows against rows of the transposed weight. -/
theorem dot1_plain : dot_S5000x32_S32x64_S5000x64_1_0_0_1_n_n = DotDims.plain 5000 32 64 := rfl

/-- The first branch's dense map of the mean, at an entry. -/
theorem fr1_at (v1 : Vec Ideal S5000x32 .f32) (v5 : Vec Ideal S64x32 .f32) (v13 : Vec Ideal S64 .f32) (r : Fin 5000) (g : Fin 64) :
    k1_pay4 (F := Ideal) v1 v5 v13 (ix2 r g) = denseAt (R := 5000) (K := 32) (N := 64) v1 v5 v13 r g := by
  unfold k1_pay4 k1_pay3
  rw [dot1_plain]
  refine (Cert.LibDenseRow.dense_at none _ _ _ _ _ _ r g).trans ?_
  unfold denseAt
  simp only [truncf_apply, shapeCast_self]

/-- The second branch's dense map of the mean, at an entry. -/
theorem be1_at (v1 : Vec Ideal S5000x32 .f32) (v7 : Vec Ideal S64x32 .f32) (v19 : Vec Ideal S64 .f32) (r : Fin 5000) (g : Fin 64) :
    k1_pay5 (F := Ideal) v1 v7 v19 (ix2 r g) = denseAt (R := 5000) (K := 32) (N := 64) v1 v7 v19 r g := by
  unfold k1_pay5 k1_pay3
  rw [dot1_plain]
  refine (Cert.LibDenseRow.dense_at none _ _ _ _ _ _ r g).trans ?_
  unfold denseAt
  simp only [truncf_apply, shapeCast_self]

/-- The dense map of the node's own row, at an entry. -/
theorem self1_at (v0 : Vec Ideal S5000x32 .f32) (v9 : Vec Ideal S64x32 .f32) (v25 : Vec Ideal S64 .f32) (r : Fin 5000) (g : Fin 64) :
    k1_pay6 (F := Ideal) v0 v9 v25 (ix2 r g) = denseAt (R := 5000) (K := 32) (N := 64) v0 v9 v25 r g := by
  unfold k1_pay6 k1_pay2
  rw [dot1_plain]
  refine (Cert.LibDenseRow.dense_at none _ _ _ _ _ _ r g).trans ?_
  unfold denseAt
  simp only [truncf_apply, shapeCast_self]

/-- The gate's lane sum, kept as a column, at a row. -/
theorem gsum1_at (v0 : Vec Ideal S5000x32 .f32) (v29 : Vec Ideal S1x32 .f32) (r : Fin 5000) (u : Fin 1) :
    k1_pay7 (F := Ideal) v0 v29 (ix2 r u) = ∑ d : Fin 32, v0 (ix2 r d) * v29 (ix2 (0 : Fin 1) d) := by
  unfold k1_pay7 k1_pay2
  refine (Cert.LibGatedBody.gateSum_at _ v29 _ _ _ _ _ _ _ _ r u).trans ?_
  simp only [shapeCast_self]

/-- The gate's bias as a scalar. -/
theorem gb1_eq (v37 : Vec Ideal S1 .f32) : k1_pay8 (F := Ideal) v37 = v37 (ix1 (0 : Fin 1)) := by
  unfold k1_pay8
  show extractAt ![0] v37 _ = _
  unfold extractAt
  exact congrArg v37 (funext fun a => Fin.ext (by match a with | ⟨0, _⟩ => rfl))

/-- THE SECOND LAYER'S TILE at an entry: the update of the tiles. -/
theorem tile1_at (x0 x1 : Vec Ideal S5000x32 .f32) (x2 : Vec Ideal S64x32 .f32) (x3 : Vec Ideal S64 .f32)
    (x4 : Vec Ideal S64x32 .f32) (x5 : Vec Ideal S64 .f32) (x6 : Vec Ideal S1x32 .f32) (x7 : Vec Ideal S1 .f32)
    (x8 : Vec Ideal S64x32 .f32) (x9 : Vec Ideal S64 .f32) (p : Fin 5000) (q : Fin 64) :
    k1_pay1 (F := Ideal) (k1_pay4 x1 x2 x3) (k1_pay5 x1 x4 x5) (k1_pay6 x0 x8 x9) (k1_pay7 x0 x6) (k1_pay8 x7) (ix2 p q)
      = updAt (R := 5000) (K := 32) (N := 64) x0 x1 x2 x3 x4 x5 x6 x7 x8 x9 p q := by
  unfold k1_pay1
  exact Cert.LibGatedBody.combine_at (R := 5000) (K := 32) (N := 64) x0 x1 x2 x3 x4 x5 x6 x7 x8 x9 _ _ _ _
    (broadcast S5000x1 (k1_pay8 (F := Ideal) x7)) _ p q
    (fr1_at x1 x2 x3 p q) (be1_at x1 x4 x5 p q) (self1_at x0 x8 x9 p q) (gsum1_at x0 x6 p 0) (gb1_eq x7)

/-- The same at any index of the tile. -/
theorem tile1_at' (x0 x1 : Vec Ideal S5000x32 .f32) (x2 : Vec Ideal S64x32 .f32) (x3 : Vec Ideal S64 .f32)
    (x4 : Vec Ideal S64x32 .f32) (x5 : Vec Ideal S64 .f32) (x6 : Vec Ideal S1x32 .f32) (x7 : Vec Ideal S1 .f32)
    (x8 : Vec Ideal S64x32 .f32) (x9 : Vec Ideal S64 .f32) (j : S5000x64.Idx) :
    k1_pay1 (F := Ideal) (k1_pay4 x1 x2 x3) (k1_pay5 x1 x4 x5) (k1_pay6 x0 x8 x9) (k1_pay7 x0 x6) (k1_pay8 x7) j
      = updAt (R := 5000) (K := 32) (N := 64) x0 x1 x2 x3 x4 x5 x6 x7 x8 x9 (j 0) (j 1) := by
  exact (congrArg (k1_pay1 (F := Ideal) (k1_pay4 x1 x2 x3) (k1_pay5 x1 x4 x5) (k1_pay6 x0 x8 x9) (k1_pay7 x0 x6) (k1_pay8 x7)) (eq_ix2 j)).trans
    (tile1_at x0 x1 x2 x3 x4 x5 x6 x7 x8 x9 (j 0) (j 1))

end Cert.KernelIdeal.KPay

end
-- ==== Proof.KBlocks.lean ====
/-
  From tiles to arrays: each region's result array, after the region, as one function of the arrays the region finds.

  A region runs its body at twenty grid points; point t reads tile t (5000 rows) of the node array and of the array of
  neighbourhood means, reads every weight whole, and writes tile t of the result. Each tile is the restriction of ONE
  whole-array function — the gated update of the layer module — so the result array, covered by the twenty tiles, ends
  holding that function. Stated at any contents `V` of the buffers at the region's entry.
-/
import proofs.«157271_j89601607729377_1_alg».proof.Proof.Gen.KernelIdeal.Frame
import proofs.«157271_j89601607729377_1_alg».proof.Proof.KPay

set_option maxRecDepth 16384

noncomputable section

namespace Cert.KernelIdeal.KBlocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibGatedLayer

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: the first layer -/

/-- The layer's whole result array as a function of the arrays the region finds. -/
abbrev G0 (c : Dev nD) : S100000x32.Idx → EReal :=
  updRelu (R := 100000) (K := 128) (N := 32) (V c main_arg0) (V c main_v23) (V c main_arg4) (V c main_arg5) (V c main_arg6) (V c main_arg7)
    (V c main_arg8) (V c main_arg9) (V c main_arg10) (V c main_arg11)

/-- The printed index maps over the grid: the node rows, their means and the output move down by one tile per point;
    every weight window stays at its one block. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 1) = 0)
    ∧ (win0_4.index t (0 : Fin 2) = 0 ∧ win0_4.index t (1 : Fin 2) = 0)
    ∧ (win0_5.index t (0 : Fin 1) = 0)
    ∧ (win0_6.index t (0 : Fin 2) = 0 ∧ win0_6.index t (1 : Fin 2) = 0)
    ∧ (win0_7.index t (0 : Fin 1) = 0)
    ∧ (win0_8.index t (0 : Fin 2) = 0 ∧ win0_8.index t (1 : Fin 2) = 0)
    ∧ (win0_9.index t (0 : Fin 1) = 0)
    ∧ (win0_10.index t (0 : Fin 2) = t.val ∧ win0_10.index t (1 : Fin 2) = 0) :=
  (by decide +kernel : ∀ t : Fin grid0.N, _)

set_option maxHeartbeats 1600000 in
/-- The tile a point's body leaves, at an entry, is the layer's array at the entry's place in the whole array: the
    tile's row p at point t is row 5000·t + p of the node arrays, and the weights are read whole. -/
theorem tile0_read (c : Dev nD) (t : Fin cfg0.N) (j : S5000x32.Idx) :
    out0_10 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) j
      = G0 V c (((cfg0.win 10).blk t).view.emb j) := by
  unfold out0_10
  rw [View.canon_unit_zero hz2]
  simp only [View.ld_unit_zero (S := S5000x128) hz2, View.ld_unit_zero (S := S32x128) hz2, View.ld_unit_zero (S := S32) hz1,
    View.ld_unit_zero (S := S1x128) hz2, View.ld_unit_zero (S := S1) hz1]
  refine (Cert.KernelIdeal.KPay.tile0_at' _ _ _ _ _ _ _ _ _ _ j).trans ?_
  obtain ⟨⟨e0a, e0b⟩, ⟨e1a, e1b⟩, ⟨e2a, e2b⟩, e3a, ⟨e4a, e4b⟩, e5a, ⟨e6a, e6b⟩, e7a, ⟨e8a, e8b⟩, e9a, ⟨e10a, e10b⟩⟩ := idx_facts0 t
  generalize hE : ((cfg0.win 10).blk t).view.emb j = E
  have hE0 : (E 0).val = win0_10.index t (0 : Fin 2) * 5000 + 1 * (j 0).val := by rw [← hE]; rfl
  have hE1 : (E 1).val = win0_10.index t (1 : Fin 2) * 32 + 1 * (j 1).val := by rw [← hE]; rfl
  clear hE
  have hX : ∀ kk : Fin 128, iblk0 V c 0 t (ix2 (n0 := 5000) (n1 := 128) (j 0) kk) = V c main_arg0 (ix2 (n0 := 100000) (n1 := 128) (E 0) kk) := fun kk => by
    show V c main_arg0 (((cfg0.win 0).blk t).view.emb (ix2 (n0 := 5000) (n1 := 128) (j 0) kk)) = _
    refine congrArg (V c main_arg0) (funext fun a => Fin.ext ?_)
    match a with
    | ⟨0, _⟩ => show win0_0.index t (0 : Fin 2) * 5000 + 1 * (j 0).val = (E 0).val; omega
    | ⟨1, _⟩ => show win0_0.index t (1 : Fin 2) * 128 + 1 * kk.val = kk.val; omega
  have hA : ∀ kk : Fin 128, iblk0 V c 1 t (ix2 (n0 := 5000) (n1 := 128) (j 0) kk) = V c main_v23 (ix2 (n0 := 100000) (n1 := 128) (E 0) kk) := fun kk => by
    show V c main_v23 (((cfg0.win 1).blk t).view.emb (ix2 (n0 := 5000) (n1 := 128) (j 0) kk)) = _
    refine congrArg (V c main_v23) (funext fun a => Fin.ext ?_)
    match a with
    | ⟨0, _⟩ => show win0_1.index t (0 : Fin 2) * 5000 + 1 * (j 0).val = (E 0).val; omega
    | ⟨1, _⟩ => show win0_1.index t (1 : Fin 2) * 128 + 1 * kk.val = kk.val; omega
  have hWfr : ∀ kk : Fin 128, iblk0 V c 2 t (ix2 (n0 := 32) (n1 := 128) (j 1) kk) = V c main_arg4 (ix2 (n0 := 32) (n1 := 128) (E 1) kk) := fun kk => by
    show V c main_arg4 (((cfg0.win 2).blk t).view.emb (ix2 (n0 := 32) (n1 := 128) (j 1) kk)) = _
    refine congrArg (V c main_arg4) (funext fun a => Fin.ext ?_)
    match a with
    | ⟨0, _⟩ => show win0_2.index t (0 : Fin 2) * 32 + 1 * (j 1).val = (E 1).val; omega
    | ⟨1, _⟩ => show win0_2.index t (1 : Fin 2) * 128 + 1 * kk.val = kk.val; omega
  have hbfr : iblk0 V c 3 t (ix1 (n := 32) (j 1)) = V c main_arg5 (ix1 (n := 32) (E 1)) := by
    show V c main_arg5 (((cfg0.win 3).blk t).view.emb (ix1 (n := 32) (j 1))) = _
    refine congrArg (V c main_arg5) (funext fun a => Fin.ext ?_)
    match a with
    | ⟨0, _⟩ => show win0_3.index t (0 : Fin 1) * 32 + 1 * (j 1).val = (E 1).val; omega
  have hWbe : ∀ kk : Fin 128, iblk0 V c 4 t (ix2 (n0 := 32) (n1 := 128) (j 1) kk) = V c main_arg6 (ix2 (n0 := 32) (n1 := 128) (E 1) kk) := fun kk => by
    show V c main_arg6 (((cfg0.win 4).blk t).view.emb (ix2 (n0 := 32) (n1 := 128) (j 1) kk)) = _
    refine congrArg (V c main_arg6) (funext fun a => Fin.ext ?_)
    match a with
    | ⟨0, _⟩ => show win0_4.index t (0 : Fin 2) * 32 + 1 * (j 1).val = (E 1).val; omega
    | ⟨1, _⟩ => show win0_4.index t (1 : Fin 2) * 128 + 1 * kk.val = kk.val; omega
  have hbbe : iblk0 V c 5 t (ix1 (n := 32) (j 1)) = V c main_arg7 (ix1 (n := 32) (E 1)) := by
    show V c main_arg7 (((cfg0.win 5).blk t).view.emb (ix1 (n := 32) (j 1))) = _
    refine congrArg (V c main_arg7) (funext fun a => Fin.ext ?_)
    match a with
    | ⟨0, _⟩ => show win0_5.index t (0 : Fin 1) * 32 + 1 * (j 1).val = (E 1).val; omega
  have hWbal : ∀ kk : Fin 128, iblk0 V c 6 t (ix2 (n0 := 1) (n1 := 128) (0 : Fin 1) kk) = V c main_arg8 (ix2 (n0 := 1) (n1 := 128) (0 : Fin 1) kk) := fun kk => by
    show V c main_arg8 (((cfg0.win 6).blk t).view.emb (ix2 (n0 := 1) (n1 := 128) (0 : Fin 1) kk)) = _
    refine congrArg (V c main_arg8) (funext fun a => Fin.ext ?_)
    match a with
    | ⟨0, _⟩ => show win0_6.index t (0 : Fin 2) * 1 + 1 * 0 = 0; omega
    | ⟨1, _⟩ => show win0_6.index t (1 : Fin 2) * 128 + 1 * kk.val = kk.val; omega
  have hbbal : iblk0 V c 7 t (ix1 (n := 1) (0 : Fin 1)) = V c main_arg9 (ix1 (n := 1) (0 : Fin 1)) := by
    show V c main_arg9 (((cfg0.win 7).blk t).view.emb (ix1 (n := 1) (0 : Fin 1))) = _
    refine congrArg (V c main_arg9) (funext fun a => Fin.ext ?_)
    match a with
    | ⟨0, _⟩ => show win0_7.index t (0 : Fin 1) * 1 + 1 * 0 = 0; omega
  have hWself : ∀ kk : Fin 128, iblk0 V c 8 t (ix2 (n0 := 32) (n1 := 128) (j 1) kk) = V c main_arg10 (ix2 (n0 := 32) (n1 := 128) (E 1) kk) := fun kk => by
    show V c main_arg10 (((cfg0.win 8).blk t).view.emb (ix2 (n0 := 32) (n1 := 128) (j 1) kk)) = _
    refine congrArg (V c main_arg10) (funext fun a => Fin.ext ?_)
    match a with
    | ⟨0, _⟩ => show win0_8.index t (0 : Fin 2) * 32 + 1 * (j 1).val = (E 1).val; omega
    | ⟨1, _⟩ => show win0_8.index t (1 : Fin 2) * 128 + 1 * kk.val = kk.val; omega
  have hbself : iblk0 V c 9 t (ix1 (n := 32) (j 1)) = V c main_arg11 (ix1 (n := 32) (E 1)) := by
    show V c main_arg11 (((cfg0.win 9).blk t).view.emb (ix1 (n := 32) (j 1))) = _
    refine congrArg (V c main_arg11) (funext fun a => Fin.ext ?_)
    match a with
    | ⟨0, _⟩ => show win0_9.index t (0 : Fin 1) * 32 + 1 * (j 1).val = (E 1).val; omega
  show max (updAt _ _ _ _ _ _ _ _ _ _ (j 0) (j 1)) zeroW = max (updAt _ _ _ _ _ _ _ _ _ _ (E 0) (E 1)) zeroW
  refine congrArg (fun z : EReal => max z zeroW) ?_
  exact updAt_congr_all (R := 5000) (R' := 100000) (K := 128) (N := 32) (j 0) (E 0) (j 1) (E 1) hX hA hWfr hbfr hWbe hbbe hWbal hbbal hWself hbself

/-- WHAT POINT `t` WRITES BACK is tile `t` of the layer's whole array. -/
theorem flushed0_eq (c : Dev nD) (t : Fin cfg0.N) :
    (dat0 V c).flushed 10 t = ((cfg0.win 10).blk t).view.read (Elt Ideal) (G0 V c) := by
  show (cfg0.win 10).cut (grid0.coords t) ((dat0 V c).after 10 t) = _
  rw [after0_10]
  funext j
  exact tile0_read V c t j

/-- An index of the result array is in point `t`'s tile iff each coordinate is in the tile's range on its axis. -/
theorem mem_blk0 (t : Fin cfg0.N) (i : S100000x32.Idx) :
    i ∈ ((cfg0.win 10).blk t).view.set ↔ ∀ a : Fin 2, win0_10.index t a * S5000x32.size a ≤ (i a).val ∧ (i a).val < win0_10.index t a * S5000x32.size a + S5000x32.size a := by
  show i ∈ ((View.whole main_v24).slice (win0_10.rect t)).set ↔ _
  rw [View.set_slice_whole, Rect.mem_set_unit]
  exact Iff.rfl

/-- The twenty tiles cover the result array: row `r` is in the tile of point `r / 5000`. -/
theorem cover0 (i : S100000x32.Idx) : ∃ t : Fin cfg0.N, (cfg0.win 10).flush t = true ∧ i ∈ ((cfg0.win 10).blk t).view.set := by
  have hi0 : (i 0).val < 100000 := (i 0).isLt
  have hi1 : (i 1).val < 32 := (i 1).isLt
  have hN : grid0.N = 20 := N_0
  have hlt : (i 0).val / 5000 < cfg0.N := by show (i 0).val / 5000 < grid0.N; rw [hN]; omega
  obtain ⟨-, -, -, -, -, -, -, -, -, -, ⟨e0, e1⟩⟩ := idx_facts0 ⟨(i 0).val / 5000, hlt⟩
  refine ⟨⟨(i 0).val / 5000, hlt⟩, flush0_10 _, ?_⟩
  rw [mem_blk0]
  intro a
  match a with
  | ⟨0, _⟩ =>
    show win0_10.index ⟨(i 0).val / 5000, hlt⟩ (0 : Fin 2) * 5000 ≤ (i 0).val ∧ (i 0).val < win0_10.index ⟨(i 0).val / 5000, hlt⟩ (0 : Fin 2) * 5000 + 5000
    rw [e0]; show (i 0).val / 5000 * 5000 ≤ (i 0).val ∧ (i 0).val < (i 0).val / 5000 * 5000 + 5000
    omega
  | ⟨1, _⟩ =>
    show win0_10.index ⟨(i 0).val / 5000, hlt⟩ (1 : Fin 2) * 32 ≤ (i 1).val ∧ (i 1).val < win0_10.index ⟨(i 0).val / 5000, hlt⟩ (1 : Fin 2) * 32 + 32
    rw [e1]; omega

/-- THE LAYER'S ARRAY after the region: the layer's function of the arrays the region finds. -/
theorem final0 (c : Dev nD) : (dat0 V c).arrAt 10 cfg0.N = G0 V c :=
  (dat0 V c).arrAt_eq_of_cover 10 (G0 V c) (fun t _ => flushed0_eq V c t) (cover0)

/-! ## Region 1: the second layer -/

/-- The layer's whole result array as a function of the arrays the region finds. -/
abbrev G1 (c : Dev nD) : S100000x64.Idx → EReal :=
  upd (R := 100000) (K := 32) (N := 64) (V c main_v24) (V c main_v37) (V c main_arg12) (V c main_arg13) (V c main_arg14) (V c main_arg15)
    (V c main_arg16) (V c main_arg17) (V c main_arg18) (V c main_arg19)

/-- The printed index maps over the grid: the node rows, their means and the output move down by one tile per point;
    every weight window stays at its one block. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 1) = 0)
    ∧ (win1_4.index t (0 : Fin 2) = 0 ∧ win1_4.index t (1 : Fin 2) = 0)
    ∧ (win1_5.index t (0 : Fin 1) = 0)
    ∧ (win1_6.index t (0 : Fin 2) = 0 ∧ win1_6.index t (1 : Fin 2) = 0)
    ∧ (win1_7.index t (0 : Fin 1) = 0)
    ∧ (win1_8.index t (0 : Fin 2) = 0 ∧ win1_8.index t (1 : Fin 2) = 0)
    ∧ (win1_9.index t (0 : Fin 1) = 0)
    ∧ (win1_10.index t (0 : Fin 2) = t.val ∧ win1_10.index t (1 : Fin 2) = 0) :=
  (by decide +kernel : ∀ t : Fin grid1.N, _)

set_option maxHeartbeats 1600000 in
/-- The tile a point's body leaves, at an entry, is the layer's array at the entry's place in the whole array: the
    tile's row p at point t is row 5000·t + p of the node arrays, and the weights are read whole. -/
theorem tile1_read (c : Dev nD) (t : Fin cfg1.N) (j : S5000x64.Idx) :
    out1_10 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) j
      = G1 V c (((cfg1.win 10).blk t).view.emb j) := by
  unfold out1_10
  rw [View.canon_unit_zero hz2]
  simp only [View.ld_unit_zero (S := S5000x32) hz2, View.ld_unit_zero (S := S64x32) hz2, View.ld_unit_zero (S := S64) hz1,
    View.ld_unit_zero (S := S1x32) hz2, View.ld_unit_zero (S := S1) hz1]
  refine (Cert.KernelIdeal.KPay.tile1_at' _ _ _ _ _ _ _ _ _ _ j).trans ?_
  obtain ⟨⟨e0a, e0b⟩, ⟨e1a, e1b⟩, ⟨e2a, e2b⟩, e3a, ⟨e4a, e4b⟩, e5a, ⟨e6a, e6b⟩, e7a, ⟨e8a, e8b⟩, e9a, ⟨e10a, e10b⟩⟩ := idx_facts1 t
  generalize hE : ((cfg1.win 10).blk t).view.emb j = E
  have hE0 : (E 0).val = win1_10.index t (0 : Fin 2) * 5000 + 1 * (j 0).val := by rw [← hE]; rfl
  have hE1 : (E 1).val = win1_10.index t (1 : Fin 2) * 64 + 1 * (j 1).val := by rw [← hE]; rfl
  clear hE
  have hX : ∀ kk : Fin 32, iblk1 V c 0 t (ix2 (n0 := 5000) (n1 := 32) (j 0) kk) = V c main_v24 (ix2 (n0 := 100000) (n1 := 32) (E 0) kk) := fun kk => by
    show V c main_v24 (((cfg1.win 0).blk t).view.emb (ix2 (n0 := 5000) (n1 := 32) (j 0) kk)) = _
    refine congrArg (V c main_v24) (funext fun a => Fin.ext ?_)
    match a with
    | ⟨0, _⟩ => show win1_0.index t (0 : Fin 2) * 5000 + 1 * (j 0).val = (E 0).val; omega
    | ⟨1, _⟩ => show win1_0.index t (1 : Fin 2) * 32 + 1 * kk.val = kk.val; omega
  have hA : ∀ kk : Fin 32, iblk1 V c 1 t (ix2 (n0 := 5000) (n1 := 32) (j 0) kk) = V c main_v37 (ix2 (n0 := 100000) (n1 := 32) (E 0) kk) := fun kk => by
    show V c main_v37 (((cfg1.win 1).blk t).view.emb (ix2 (n0 := 5000) (n1 := 32) (j 0) kk)) = _
    refine congrArg (V c main_v37) (funext fun a => Fin.ext ?_)
    match a with
    | ⟨0, _⟩ => show win1_1.index t (0 : Fin 2) * 5000 + 1 * (j 0).val = (E 0).val; omega
    | ⟨1, _⟩ => show win1_1.index t (1 : Fin 2) * 32 + 1 * kk.val = kk.val; omega
  have hWfr : ∀ kk : Fin 32, iblk1 V c 2 t (ix2 (n0 := 64) (n1 := 32) (j 1) kk) = V c main_arg12 (ix2 (n0 := 64) (n1 := 32) (E 1) kk) := fun kk => by
    show V c main_arg12 (((cfg1.win 2).blk t).view.emb (ix2 (n0 := 64) (n1 := 32) (j 1) kk)) = _
    refine congrArg (V c main_arg12) (funext fun a => Fin.ext ?_)
    match a with
    | ⟨0, _⟩ => show win1_2.index t (0 : Fin 2) * 64 + 1 * (j 1).val = (E 1).val; omega
    | ⟨1, _⟩ => show win1_2.index t (1 : Fin 2) * 32 + 1 * kk.val = kk.val; omega
  have hbfr : iblk1 V c 3 t (ix1 (n := 64) (j 1)) = V c main_arg13 (ix1 (n := 64) (E 1)) := by
    show V c main_arg13 (((cfg1.win 3).blk t).view.emb (ix1 (n := 64) (j 1))) = _
    refine congrArg (V c main_arg13) (funext fun a => Fin.ext ?_)
    match a with
    | ⟨0, _⟩ => show win1_3.index t (0 : Fin 1) * 64 + 1 * (j 1).val = (E 1).val; omega
  have hWbe : ∀ kk : Fin 32, iblk1 V c 4 t (ix2 (n0 := 64) (n1 := 32) (j 1) kk) = V c main_arg14 (ix2 (n0 := 64) (n1 := 32) (E 1) kk) := fun kk => by
    show V c main_arg14 (((cfg1.win 4).blk t).view.emb (ix2 (n0 := 64) (n1 := 32) (j 1) kk)) = _
    refine congrArg (V c main_arg14) (funext fun a => Fin.ext ?_)
    match a with
    | ⟨0, _⟩ => show win1_4.index t (0 : Fin 2) * 64 + 1 * (j 1).val = (E 1).val; omega
    | ⟨1, _⟩ => show win1_4.index t (1 : Fin 2) * 32 + 1 * kk.val = kk.val; omega
  have hbbe : iblk1 V c 5 t (ix1 (n := 64) (j 1)) = V c main_arg15 (ix1 (n := 64) (E 1)) := by
    show V c main_arg15 (((cfg1.win 5).blk t).view.emb (ix1 (n := 64) (j 1))) = _
    refine congrArg (V c main_arg15) (funext fun a => Fin.ext ?_)
    match a with
    | ⟨0, _⟩ => show win1_5.index t (0 : Fin 1) * 64 + 1 * (j 1).val = (E 1).val; omega
  have hWbal : ∀ kk : Fin 32, iblk1 V c 6 t (ix2 (n0 := 1) (n1 := 32) (0 : Fin 1) kk) = V c main_arg16 (ix2 (n0 := 1) (n1 := 32) (0 : Fin 1) kk) := fun kk => by
    show V c main_arg16 (((cfg1.win 6).blk t).view.emb (ix2 (n0 := 1) (n1 := 32) (0 : Fin 1) kk)) = _
    refine congrArg (V c main_arg16) (funext fun a => Fin.ext ?_)
    match a with
    | ⟨0, _⟩ => show win1_6.index t (0 : Fin 2) * 1 + 1 * 0 = 0; omega
    | ⟨1, _⟩ => show win1_6.index t (1 : Fin 2) * 32 + 1 * kk.val = kk.val; omega
  have hbbal : iblk1 V c 7 t (ix1 (n := 1) (0 : Fin 1)) = V c main_arg17 (ix1 (n := 1) (0 : Fin 1)) := by
    show V c main_arg17 (((cfg1.win 7).blk t).view.emb (ix1 (n := 1) (0 : Fin 1))) = _
    refine congrArg (V c main_arg17) (funext fun a => Fin.ext ?_)
    match a with
    | ⟨0, _⟩ => show win1_7.index t (0 : Fin 1) * 1 + 1 * 0 = 0; omega
  have hWself : ∀ kk : Fin 32, iblk1 V c 8 t (ix2 (n0 := 64) (n1 := 32) (j 1) kk) = V c main_arg18 (ix2 (n0 := 64) (n1 := 32) (E 1) kk) := fun kk => by
    show V c main_arg18 (((cfg1.win 8).blk t).view.emb (ix2 (n0 := 64) (n1 := 32) (j 1) kk)) = _
    refine congrArg (V c main_arg18) (funext fun a => Fin.ext ?_)
    match a with
    | ⟨0, _⟩ => show win1_8.index t (0 : Fin 2) * 64 + 1 * (j 1).val = (E 1).val; omega
    | ⟨1, _⟩ => show win1_8.index t (1 : Fin 2) * 32 + 1 * kk.val = kk.val; omega
  have hbself : iblk1 V c 9 t (ix1 (n := 64) (j 1)) = V c main_arg19 (ix1 (n := 64) (E 1)) := by
    show V c main_arg19 (((cfg1.win 9).blk t).view.emb (ix1 (n := 64) (j 1))) = _
    refine congrArg (V c main_arg19) (funext fun a => Fin.ext ?_)
    match a with
    | ⟨0, _⟩ => show win1_9.index t (0 : Fin 1) * 64 + 1 * (j 1).val = (E 1).val; omega
  show updAt _ _ _ _ _ _ _ _ _ _ (j 0) (j 1) = updAt _ _ _ _ _ _ _ _ _ _ (E 0) (E 1)
  exact updAt_congr_all (R := 5000) (R' := 100000) (K := 32) (N := 64) (j 0) (E 0) (j 1) (E 1) hX hA hWfr hbfr hWbe hbbe hWbal hbbal hWself hbself

/-- WHAT POINT `t` WRITES BACK is tile `t` of the layer's whole array. -/
theorem flushed1_eq (c : Dev nD) (t : Fin cfg1.N) :
    (dat1 V c).flushed 10 t = ((cfg1.win 10).blk t).view.read (Elt Ideal) (G1 V c) := by
  show (cfg1.win 10).cut (grid1.coords t) ((dat1 V c).after 10 t) = _
  rw [after1_10]
  funext j
  exact tile1_read V c t j

/-- An index of the result array is in point `t`'s tile iff each coordinate is in the tile's range on its axis. -/
theorem mem_blk1 (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v38).slice (win1_10.rect t)).set ↔ _
  rw [View.set_slice_whole, Rect.mem_set_unit]
  exact Iff.rfl

/-- The twenty tiles cover the result array: row `r` is in the tile of point `r / 5000`. -/
theorem cover1 (i : S100000x64.Idx) : ∃ t : Fin cfg1.N, (cfg1.win 10).flush t = true ∧ i ∈ ((cfg1.win 10).blk t).view.set := by
  have hi0 : (i 0).val < 100000 := (i 0).isLt
  have hi1 : (i 1).val < 64 := (i 1).isLt
  have hN : grid1.N = 20 := N_1
  have hlt : (i 0).val / 5000 < cfg1.N := by show (i 0).val / 5000 < grid1.N; rw [hN]; omega
  obtain ⟨-, -, -, -, -, -, -, -, -, -, ⟨e0, e1⟩⟩ := idx_facts1 ⟨(i 0).val / 5000, hlt⟩
  refine ⟨⟨(i 0).val / 5000, hlt⟩, flush1_10 _, ?_⟩
  rw [mem_blk1]
  intro a
  match a with
  | ⟨0, _⟩ =>
    show win1_10.index ⟨(i 0).val / 5000, hlt⟩ (0 : Fin 2) * 5000 ≤ (i 0).val ∧ (i 0).val < win1_10.index ⟨(i 0).val / 5000, hlt⟩ (0 : Fin 2) * 5000 + 5000
    rw [e0]; show (i 0).val / 5000 * 5000 ≤ (i 0).val ∧ (i 0).val < (i 0).val / 5000 * 5000 + 5000
    omega
  | ⟨1, _⟩ =>
    show win1_10.index ⟨(i 0).val / 5000, hlt⟩ (1 : Fin 2) * 64 ≤ (i 1).val ∧ (i 1).val < win1_10.index ⟨(i 0).val / 5000, hlt⟩ (1 : Fin 2) * 64 + 64
    rw [e1]; omega

/-- THE LAYER'S ARRAY after the region: the layer's function of the arrays the region finds. -/
theorem final1 (c : Dev nD) : (dat1 V c).arrAt 10 cfg1.N = G1 V c :=
  (dat1 V c).arrAt_eq_of_cover 10 (G1 V c) (fun t _ => flushed1_eq V c t) (cover1)

end Cert.KernelIdeal.KBlocks

end
-- ==== Proof.KAgg.lean ====
/-
  The neighbourhood means the two regions are entered with are the reference's.

  Both programs form a layer's mean of neighbours by the same host operations: the rows named by the source indices
  gathered, added up at the destination indices, the node's own row added, the sum divided by one plus the number of
  incoming edges. The kernel program computes the edge count once and the reference once per layer; the operations and
  their operands are the same, so the arrays are equal without opening the gather or the sums.
-/
import proofs.«157271_j89601607729377_1_alg».proof.Proof.Gen.KernelIdeal.Frame
import proofs.«157271_j89601607729377_1_alg».proof.Proof.Gen.ReferenceIdeal.Read
import Idealize.ShloMosaic.Lib.StableHlo.Run
import Idealize.ShloMosaic.PureOps.Ideal

set_option maxRecDepth 16384

noncomputable section

namespace Cert.KernelIdeal.KAgg

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg)

/-- The first region is entered with the reference's first-layer mean of the launched arrays. -/
theorem mean0 (c : Dev nD) :
    V1 m ρ c main_v23 = Cert.ReferenceIdeal.Read.val_main_v28 (F := Ideal) (m ((c : Thread nD τ).loc main_arg0)) (m ((c : Thread nD τ).loc main_arg1)) := by
  show StableHlo.after hostOps0 (W0 m ρ c) (Proc.devRef .tc main_v23) = _
  after_results_simp
  rfl

/-- The second region is entered with the reference's second-layer mean, once the first layer's result is the
    reference's: the second stretch reads that result, the edge indices and the edge-count column the first stretch
    made, all unchanged by the first region. -/
theorem mean1 (c : Dev nD)
    (hH : (dat0 (V1 m ρ) c).arrAt 10 cfg0.N = Cert.ReferenceIdeal.Read.val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    V3 m ρ c main_v37 = Cert.ReferenceIdeal.Read.val_main_v84 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h24 : W2 m ρ c (Proc.devRef .tc main_v24) = Cert.ReferenceIdeal.Read.val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
    (W2_arr m ρ c 10).trans hH
  have h1 : W2 m ρ c (Proc.devRef .tc main_v1) = StableHlo.after hostOps0 (W0 m ρ c) (Proc.devRef .tc main_v1) :=
    W2_of_ne m ρ c main_v1 (by decide)
  have h3 : W2 m ρ c (Proc.devRef .tc main_v3) = StableHlo.after hostOps0 (W0 m ρ c) (Proc.devRef .tc main_v3) :=
    W2_of_ne m ρ c main_v3 (by decide)
  have h10 : W2 m ρ c (Proc.devRef .tc main_v10) = StableHlo.after hostOps0 (W0 m ρ c) (Proc.devRef .tc main_v10) :=
    W2_of_ne m ρ c main_v10 (by decide)
  show StableHlo.after hostOps1 (W2 m ρ c) (Proc.devRef .tc main_v37) = _
  after_results_simp
  rw [h24, h1, h3, h10]
  after_results_simp
  rfl

end Cert.KernelIdeal.KAgg

end
-- ==== Proof.LibSigmoid.lean ====
/-
  The logistic function on the extended reals in its two spellings, and three small facts that travel with it.

  A kernel's logistic operation is, on the extended reals, 1 / (1 + e⁻ˣ) with the conventions 0 at -∞ and 1 at +∞. A host
  program that spells the sigmoid as a negation, an exponential, a sum with the word of 1.0 and a quotient of that word
  by the sum denotes the same function: the word 0x3F800000 is the number one. Beside it: the logistic function and the
  hyperbolic tangent of a vector read at an entry, and the fact that four terms added to a start value one after the
  other are the start value plus their sum (an accumulator over four unrolled steps against a reduction), in any
  commutative additive monoid.
-/
import Idealize.ShloMosaic.PureOps.Ideal
import Idealize.ShloMosaic.Lib.ValueIdx
import Mathlib.Algebra.BigOperators.Fin

noncomputable section

open scoped BigOperators

namespace Cert.LibSigmoid

open Idealize.ShloMosaic

/-- The word of 1.0 denotes the number one. -/
theorem oneW : Ideal.ofBits .f32 0x3F800000#32 = 1 := by
  simp [Ideal.ofBits, Ideal.ieee, -EReal.coe_mul]; norm_num

/-- The sigmoid spelt with the word of 1.0, a negation, an exponential, a sum and a quotient is the logistic function,
    at every extended real. -/
theorem logistic_spelt (x : EReal) :
    Ideal.div (Ideal.ofBits .f32 0x3F800000#32) (Ideal.ofBits .f32 0x3F800000#32 + Ideal.exp (-x)) = Ideal.logistic x := by
  rw [oneW]; rfl

/-- The logistic function of a vector, at an entry. -/
theorem logistic_at {s : Shape} {φ : FTy} (v : FVec Ideal s φ) (i : s.Idx) : logistic v i = Ideal.logistic (v i) := rfl

/-- The hyperbolic tangent of a vector, at an entry. -/
theorem tanh_at {s : Shape} {φ : FTy} (v : FVec Ideal s φ) (i : s.Idx) : tanh v i = Ideal.tanh (v i) := rfl

/-- Four terms added to a start value one after the other are the start value plus their sum. -/
theorem chain4 {M : Type*} [AddCommMonoid M] (z : M) (t : Fin 4 → M) :
    (((z + t 0) + t 1) + t 2) + t 3 = z + ∑ k : Fin 4, t k := by
  rw [Fin.sum_univ_four]
  simp only [add_assoc]

end Cert.LibSigmoid

end
-- ==== Proof.RefRead.lean ====
/-
  The reference's two result arrays, read entry by entry as functions of the argument arrays.

  The reference is a two-layer gated graph convolution. In each layer the neighbourhood mean of the node features is
  kept as it is computed (an array `A`); everything after it is entrywise or a dense map. A dense map of the reference is a
  product with a transposed weight plus a bias row repeated down the rows, which at entry `(r, g)` is
  `Σₖ A (r, k) · W (g, k) + b g`; the gate is the sigmoid, spelt as a quotient, of one more such map into a single column.
  Entry `(r, g)` of a layer is therefore `updAt` of the gated-layer library at the layer's features and mean; the first
  layer is rectified once more, the second is not.
-/
import proofs.«157271_j89601607729377_1_alg».proof.Proof.Gen.ReferenceIdeal.Read
import proofs.«157271_j89601607729377_1_alg».proof.Proof.LibGatedLayer
import proofs.«157271_j89601607729377_1_alg».proof.Proof.LibSigmoid

noncomputable section

open scoped BigOperators

namespace Cert.RefRead

open Cert.ReferenceIdeal Cert.ReferenceIdeal.Gen Cert.ReferenceIdeal.Read Idealize.ShloMosaic Idealize.ShloMosaic.ValueIdx
open Cert.LibGatedLayer

/-- Two rank-2 indices are equal when their coordinates are. -/
local macro "idx2" : tactic => `(tactic| (funext a; match a with | ⟨0, _⟩ => rfl | ⟨1, _⟩ => rfl))
/-- Two rank-1 indices are equal when their coordinate is. -/
local macro "idx1" : tactic => `(tactic| (funext a; match a with | ⟨0, _⟩ => rfl))

/-! ## The first layer: features `[100000, 128]`, 32 output units -/

/-- The first branch of the first layer at entry `(r, g)`: a dense map of the neighbourhood mean. -/
theorem first0_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (r : Fin 100000) (g : Fin 32) :
    val_main_v33 (F := Ideal) x0 x1 x4 x5 (ix2 r g)
      = denseAt (R := 100000) (K := 128) (N := 32) (val_main_v28 (F := Ideal) x0 x1) x4 x5 r g := by
  rw [val_main_v33_apply, val_main_v30_apply, val_main_v32_apply, val_main_v31_apply]
  simp only [val_main_v29_apply]
  have hl : ∀ k : Fin 128, lidx_main_v30 (ix2 r g) k = ix2 r k := fun k => by idx2
  have hr : ∀ k : Fin 128, idx_main_v29 (ridx_main_v30 (ix2 r g) k) = ix2 g k := fun k => by idx2
  have hb : idx_main_v31 (idx_main_v32 (ix2 r g)) = ix1 g := by idx1
  simp only [hl, hr, hb, Ideal.addf_def]
  rfl

/-- The second branch of the first layer at entry `(r, g)`: a dense map of the neighbourhood mean. -/
theorem second0_at (x0 : (⟨S100000x128, .f32⟩ : BufTy).Contents (Elt Ideal)) (x1 : (⟨S2x1600000, .i32⟩ : BufTy).Contents (Elt Ideal)) (x6 : (⟨S32x128, .f32⟩ : BufTy).Contents (Elt Ideal)) (x7 : (⟨S32, .f32⟩ : BufTy).Contents (Elt Ideal)) (r : Fin 100000) (g : Fin 32) :
    val_main_v38 (F := Ideal) x0 x1 x6 x7 (ix2 r g)
      = denseAt (R := 100000) (K := 128) (N := 32) (val_main_v28 (F := Ideal) x0 x1) x6 x7 r g := by
  rw [val_main_v38_apply, val_main_v35_apply, val_main_v37_apply, val_main_v36_apply]
  simp only [val_main_v34_apply]
  have hl : ∀ k : Fin 128, lidx_main_v35 (ix2 r g) k = ix2 r k := fun k => by idx2
  have hr : ∀ k : Fin 128, idx_main_v34 (ridx_main_v35 (ix2 r g) k) = ix2 g k := fun k => by idx2
  have hb : idx_main_v36 (idx_main_v37 (ix2 r g)) = ix1 g := by idx1
  simp only [hl, hr, hb, Ideal.addf_def]
  rfl

/-- The map of a node's own row in the first layer, at entry `(r, g)`. -/
theorem self0_at (x0 : (⟨S100000x128, .f32⟩ : BufTy).Contents (Elt Ideal)) (x10 : (⟨S32x128, .f32⟩ : BufTy).Contents (Elt Ideal)) (x11 : (⟨S32, .f32⟩ : BufTy).Contents (Elt Ideal)) (r : Fin 100000) (g : Fin 32) :
    val_main_v62 (F := Ideal) x0 x10 x11 (ix2 r g)
      = denseAt (R := 100000) (K := 128) (N := 32) x0 x10 x11 r g := by
  rw [val_main_v62_apply, val_main_v59_apply, val_main_v61_apply, val_main_v60_apply]
  simp only [val_main_v58_apply]
  have hl : ∀ k : Fin 128, lidx_main_v59 (ix2 r g) k = ix2 r k := fun k => by idx2
  have hr : ∀ k : Fin 128, idx_main_v58 (ridx_main_v59 (ix2 r g) k) = ix2 g k := fun k => by idx2
  have hb : idx_main_v60 (idx_main_v61 (ix2 r g)) = ix1 g := by idx1
  simp only [hl, hr, hb, Ideal.addf_def]
  rfl

/-- The first layer's gate column at node `r`: the spelt sigmoid of the gate's pre-activation is the logistic function of it. -/
theorem gate0_at (x0 : (⟨S100000x128, .f32⟩ : BufTy).Contents (Elt Ideal)) (x8 : (⟨S1x128, .f32⟩ : BufTy).Contents (Elt Ideal)) (x9 : (⟨S1, .f32⟩ : BufTy).Contents (Elt Ideal)) (r : Fin 100000) (u : Fin 1) :
    val_main_v49 (F := Ideal) x0 x8 x9 (ix2 r u) = gateAt (R := 100000) (K := 128) x0 x8 x9 r := by
  rw [val_main_v49_apply, val_main_v48_apply, val_main_cst_5_apply, val_main_v47_apply, val_main_v46_apply, val_main_cst_4_apply, val_main_v45_apply,
    val_main_v44_apply, val_main_v43_apply, val_main_v40_apply, val_main_v42_apply, val_main_v41_apply]
  simp only [val_main_v39_apply]
  have hl : ∀ k : Fin 128, lidx_main_v40 (ix2 r u) k = ix2 r k := fun k => by idx2
  have hr : ∀ k : Fin 128, idx_main_v39 (ridx_main_v40 (ix2 r u) k) = ix2 (0 : Fin 1) k := fun k => by
    funext a
    match a with
    | ⟨0, _⟩ => exact Fin.ext (by have hu := u.isLt; show u.val = 0; omega)
    | ⟨1, _⟩ => rfl
  have hb : idx_main_v41 (idx_main_v42 (ix2 r u)) = ix1 (0 : Fin 1) := by idx1
  simp only [hl, hr, hb, Ideal.hostDivf_def, Ideal.addf_def, Ideal.hostUnary_exp_def, Ideal.hostNegf_def, Ideal.negf_def,
    Ideal.ofBits_def]
  rw [Cert.LibSigmoid.logistic_spelt]
  rfl

/-- The first layer's result at entry `(r, g)`: the rectified gated update. -/
theorem h_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (r : Fin 100000) (g : Fin 32) :
    val_main_v64 (F := Ideal) x0 x1 x4 x5 x6 x7 x8 x9 x10 x11 (ix2 r g)
      = max (updAt (R := 100000) (K := 128) (N := 32) x0 (val_main_v28 (F := Ideal) x0 x1) x4 x5 x6 x7 x8 x9 x10 x11 r g) zeroW := by
  rw [val_main_v64_apply, val_main_call1_v0_apply, val_main_call1_cst_apply, val_main_v63_apply, val_main_v57_apply, val_main_call0_v0_apply, val_main_call0_cst_apply, val_main_v56_apply,
    val_main_v51_apply, val_main_v55_apply, val_main_v50_apply, val_main_v54_apply, val_main_v53_apply, val_main_v52_apply, val_main_cst_6_apply]
  have h1 : idx_main_v50 (ix2 r g) = ix2 r (0 : Fin 1) := by idx2
  have h2 : idx_main_v54 (ix2 r g) = ix2 r (0 : Fin 1) := by idx2
  rw [h1, h2, first0_at, second0_at, self0_at, gate0_at]
  simp only [Ideal.maximumf_def, Ideal.addf_def, Ideal.mulf_def, Ideal.subf_def, Ideal.ofBits_def]
  rfl

/-! ## The second layer: features `[100000, 32]` (the first result array), 64 output units -/

/-- The first branch of the second layer at entry `(r, g)`: a dense map of the neighbourhood mean. -/
theorem first1_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (r : Fin 100000) (g : Fin 64) :
    val_main_v89 (F := Ideal) x0 x1 x4 x5 x6 x7 x8 x9 x10 x11 x12 x13 (ix2 r g)
      = denseAt (R := 100000) (K := 32) (N := 64) (val_main_v84 (F := Ideal) x0 x1 x4 x5 x6 x7 x8 x9 x10 x11) x12 x13 r g := by
  rw [val_main_v89_apply, val_main_v86_apply, val_main_v88_apply, val_main_v87_apply]
  simp only [val_main_v85_apply]
  have hl : ∀ k : Fin 32, lidx_main_v86 (ix2 r g) k = ix2 r k := fun k => by idx2
  have hr : ∀ k : Fin 32, idx_main_v85 (ridx_main_v86 (ix2 r g) k) = ix2 g k := fun k => by idx2
  have hb : idx_main_v87 (idx_main_v88 (ix2 r g)) = ix1 g := by idx1
  simp only [hl, hr, hb, Ideal.addf_def]
  rfl

/-- The second branch of the second layer at entry `(r, g)`: a dense map of the neighbourhood mean. -/
theorem second1_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x14 : (⟨S64x32, .f32⟩ : BufTy).Contents (Elt Ideal)) (x15 : (⟨S64, .f32⟩ : BufTy).Contents (Elt Ideal)) (r : Fin 100000) (g : Fin 64) :
    val_main_v94 (F := Ideal) x0 x1 x4 x5 x6 x7 x8 x9 x10 x11 x14 x15 (ix2 r g)
      = denseAt (R := 100000) (K := 32) (N := 64) (val_main_v84 (F := Ideal) x0 x1 x4 x5 x6 x7 x8 x9 x10 x11) x14 x15 r g := by
  rw [val_main_v94_apply, val_main_v91_apply, val_main_v93_apply, val_main_v92_apply]
  simp only [val_main_v90_apply]
  have hl : ∀ k : Fin 32, lidx_main_v91 (ix2 r g) k = ix2 r k := fun k => by idx2
  have hr : ∀ k : Fin 32, idx_main_v90 (ridx_main_v91 (ix2 r g) k) = ix2 g k := fun k => by idx2
  have hb : idx_main_v92 (idx_main_v93 (ix2 r g)) = ix1 g := by idx1
  simp only [hl, hr, hb, Ideal.addf_def]
  rfl

/-- The map of a node's own row in the second layer, at entry `(r, g)`. -/
theorem self1_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x18 : (⟨S64x32, .f32⟩ : BufTy).Contents (Elt Ideal)) (x19 : (⟨S64, .f32⟩ : BufTy).Contents (Elt Ideal)) (r : Fin 100000) (g : Fin 64) :
    val_main_v118 (F := Ideal) x0 x1 x4 x5 x6 x7 x8 x9 x10 x11 x18 x19 (ix2 r g)
      = denseAt (R := 100000) (K := 32) (N := 64) (val_main_v64 (F := Ideal) x0 x1 x4 x5 x6 x7 x8 x9 x10 x11) x18 x19 r g := by
  rw [val_main_v118_apply, val_main_v115_apply, val_main_v117_apply, val_main_v116_apply]
  simp only [val_main_v114_apply]
  have hl : ∀ k : Fin 32, lidx_main_v115 (ix2 r g) k = ix2 r k := fun k => by idx2
  have hr : ∀ k : Fin 32, idx_main_v114 (ridx_main_v115 (ix2 r g) k) = ix2 g k := fun k => by idx2
  have hb : idx_main_v116 (idx_main_v117 (ix2 r g)) = ix1 g := by idx1
  simp only [hl, hr, hb, Ideal.addf_def]
  rfl

/-- The second layer's gate column at node `r`: the spelt sigmoid of the gate's pre-activation is the logistic function of it. -/
theorem gate1_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x16 : (⟨S1x32, .f32⟩ : BufTy).Contents (Elt Ideal)) (x17 : (⟨S1, .f32⟩ : BufTy).Contents (Elt Ideal)) (r : Fin 100000) (u : Fin 1) :
    val_main_v105 (F := Ideal) x0 x1 x4 x5 x6 x7 x8 x9 x10 x11 x16 x17 (ix2 r u) = gateAt (R := 100000) (K := 32) (val_main_v64 (F := Ideal) x0 x1 x4 x5 x6 x7 x8 x9 x10 x11) x16 x17 r := by
  rw [val_main_v105_apply, val_main_v104_apply, val_main_cst_14_apply, val_main_v103_apply, val_main_v102_apply, val_main_cst_13_apply, val_main_v101_apply,
    val_main_v100_apply, val_main_v99_apply, val_main_v96_apply, val_main_v98_apply, val_main_v97_apply]
  simp only [val_main_v95_apply]
  have hl : ∀ k : Fin 32, lidx_main_v96 (ix2 r u) k = ix2 r k := fun k => by idx2
  have hr : ∀ k : Fin 32, idx_main_v95 (ridx_main_v96 (ix2 r u) k) = ix2 (0 : Fin 1) k := fun k => by
    funext a
    match a with
    | ⟨0, _⟩ => exact Fin.ext (by have hu := u.isLt; show u.val = 0; omega)
    | ⟨1, _⟩ => rfl
  have hb : idx_main_v97 (idx_main_v98 (ix2 r u)) = ix1 (0 : Fin 1) := by idx1
  simp only [hl, hr, hb, Ideal.hostDivf_def, Ideal.addf_def, Ideal.hostUnary_exp_def, Ideal.hostNegf_def, Ideal.negf_def,
    Ideal.ofBits_def]
  rw [Cert.LibSigmoid.logistic_spelt]
  rfl

/-- The second layer's result at entry `(r, g)`: the gated update, not rectified again. -/
theorem out_at (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S64x32, .f32⟩ : BufTy).Contents (Elt Ideal)) (x15 : (⟨S64, .f32⟩ : BufTy).Contents (Elt Ideal)) (x16 : (⟨S1x32, .f32⟩ : BufTy).Contents (Elt Ideal)) (x17 : (⟨S1, .f32⟩ : BufTy).Contents (Elt Ideal)) (x18 : (⟨S64x32, .f32⟩ : BufTy).Contents (Elt Ideal)) (x19 : (⟨S64, .f32⟩ : BufTy).Contents (Elt Ideal)) (r : Fin 100000) (g : Fin 64) :
    val_main_v119 (F := Ideal) x0 x1 x4 x5 x6 x7 x8 x9 x10 x11 x12 x13 x14 x15 x16 x17 x18 x19 (ix2 r g)
      = updAt (R := 100000) (K := 32) (N := 64) (val_main_v64 (F := Ideal) x0 x1 x4 x5 x6 x7 x8 x9 x10 x11) (val_main_v84 (F := Ideal) x0 x1 x4 x5 x6 x7 x8 x9 x10 x11) x12 x13 x14 x15 x16 x17 x18 x19 r g := by
  rw [val_main_v119_apply, val_main_v113_apply, val_main_call2_v0_apply, val_main_call2_cst_apply, val_main_v112_apply,
    val_main_v107_apply, val_main_v111_apply, val_main_v106_apply, val_main_v110_apply, val_main_v109_apply, val_main_v108_apply, val_main_cst_15_apply]
  have h1 : idx_main_v106 (ix2 r g) = ix2 r (0 : Fin 1) := by idx2
  have h2 : idx_main_v110 (ix2 r g) = ix2 r (0 : Fin 1) := by idx2
  rw [h1, h2, first1_at, second1_at, self1_at, gate1_at]
  simp only [Ideal.maximumf_def, Ideal.addf_def, Ideal.mulf_def, Ideal.subf_def, Ideal.ofBits_def]
  rfl

/-! ## The two result arrays -/

/-- The first result array is the rectified gated update of the node features and their neighbourhood mean. -/
theorem ref_h (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) :
    val_main_v64 (F := Ideal) x0 x1 x4 x5 x6 x7 x8 x9 x10 x11
      = updRelu (R := 100000) (K := 128) (N := 32) x0 (val_main_v28 (F := Ideal) x0 x1) x4 x5 x6 x7 x8 x9 x10 x11 := by
  funext i
  obtain ⟨r, g, rfl⟩ : ∃ (r : Fin 100000) (g : Fin 32), i = ix2 r g := ⟨i 0, i 1, eq_ix2 i⟩
  exact h_at x0 x1 x4 x5 x6 x7 x8 x9 x10 x11 r g

/-- The second result array is the gated update of the first result array and its neighbourhood mean. -/
theorem ref_out (x0 : (⟨S100000x128, .f32⟩ : BufTy).Contents (Elt Ideal)) (x1 : (⟨S2x1600000, .i32⟩ : BufTy).Contents (Elt Ideal)) (x4 : (⟨S32x128, .f32⟩ : BufTy).Contents (Elt Ideal)) (x5 : (⟨S32, .f32⟩ : BufTy).Contents (Elt Ideal)) (x6 : (⟨S32x128, .f32⟩ : BufTy).Contents (Elt Ideal)) (x7 : (⟨S32, .f32⟩ : BufTy).Contents (Elt Ideal)) (x8 : (⟨S1x128, .f32⟩ : BufTy).Contents (Elt Ideal)) (x9 : (⟨S1, .f32⟩ : BufTy).Contents (Elt Ideal)) (x10 : (⟨S32x128, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S64x32, .f32⟩ : BufTy).Contents (Elt Ideal)) (x15 : (⟨S64, .f32⟩ : BufTy).Contents (Elt Ideal)) (x16 : (⟨S1x32, .f32⟩ : BufTy).Contents (Elt Ideal)) (x17 : (⟨S1, .f32⟩ : BufTy).Contents (Elt Ideal)) (x18 : (⟨S64x32, .f32⟩ : BufTy).Contents (Elt Ideal)) (x19 : (⟨S64, .f32⟩ : BufTy).Contents (Elt Ideal)) :
    val_main_v119 (F := Ideal) x0 x1 x4 x5 x6 x7 x8 x9 x10 x11 x12 x13 x14 x15 x16 x17 x18 x19
      = upd (R := 100000) (K := 32) (N := 64) (val_main_v64 (F := Ideal) x0 x1 x4 x5 x6 x7 x8 x9 x10 x11) (val_main_v84 (F := Ideal) x0 x1 x4 x5 x6 x7 x8 x9 x10 x11) x12 x13 x14 x15 x16 x17 x18 x19 := by
  funext i
  obtain ⟨r, g, rfl⟩ : ∃ (r : Fin 100000) (g : Fin 64), i = ix2 r g := ⟨i 0, i 1, eq_ix2 i⟩
  exact out_at x0 x1 x4 x5 x6 x7 x8 x9 x10 x11 x12 x13 x14 x15 x16 x17 x18 x19 r g

end Cert.RefRead

end
-- ==== Proof.KValue.lean ====
/-
  The idealized kernel's two results as functions of the launched arrays.

  The first region's result array is the first layer's rectified gated update of the launched node array and its
  neighbourhood mean; the second region's is the second layer's update of the first result and ITS mean. Both are the
  arrays the reference's two result stages denote at the same arguments: the layers by the entrywise reading of both
  sides, the means because both programs form them by the same host operations.
-/
import proofs.«157271_j89601607729377_1_alg».proof.Proof.KRun
import proofs.«157271_j89601607729377_1_alg».proof.Proof.KFold
import proofs.«157271_j89601607729377_1_alg».proof.Proof.KBlocks
import proofs.«157271_j89601607729377_1_alg».proof.Proof.KAgg
import proofs.«157271_j89601607729377_1_alg».proof.Proof.RefRead

set_option maxRecDepth 16384

noncomputable section

namespace Cert.KernelIdeal.KValue

open Cert.KernelIdeal Cert.KernelIdeal.Gen
open Idealize.ShloMosaic Idealize.ShloMosaic.TcCoe
open Idealize.SL.Sem
open Idealize.ShloMosaic.Pipeline (Dat Cfg Window)
open Cert.LibGatedLayer

variable (m : (ℓ : Loc nD τ sig) → Buf (Elt Ideal) ℓ) (ρ : Dev nD → PrngReg)

/-- The first layer's result after the first region is the reference's first result stage of the launched arrays. -/
theorem first_result (c : Dev nD) :
    (dat0 (V1 m ρ) c).arrAt 10 cfg0.N = Cert.ReferenceIdeal.Read.val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Cert.KernelIdeal.KBlocks.final0 (V1 m ρ) c).trans ?_
  refine Eq.trans ?_ (Cert.RefRead.ref_h _ _ _ _ _ _ _ _ _ _).symm
  show updRelu (R := 100000) (K := 128) (N := 32) (V1 m ρ c main_arg0) (V1 m ρ c main_v23) (V1 m ρ c main_arg4) (V1 m ρ c main_arg5)
      (V1 m ρ c main_arg6) (V1 m ρ c main_arg7) (V1 m ρ c main_arg8) (V1 m ρ c main_arg9) (V1 m ρ c main_arg10) (V1 m ρ c main_arg11) = _
  rw [Cert.KernelIdeal.KFold.V1_arg0 m ρ c, Cert.KernelIdeal.KAgg.mean0 m ρ c, Cert.KernelIdeal.KFold.V1_arg4 m ρ c,
    Cert.KernelIdeal.KFold.V1_arg5 m ρ c, Cert.KernelIdeal.KFold.V1_arg6 m ρ c, Cert.KernelIdeal.KFold.V1_arg7 m ρ c,
    Cert.KernelIdeal.KFold.V1_arg8 m ρ c, Cert.KernelIdeal.KFold.V1_arg9 m ρ c, Cert.KernelIdeal.KFold.V1_arg10 m ρ c,
    Cert.KernelIdeal.KFold.V1_arg11 m ρ c]

/-- The second layer's result after the second region is the reference's second result stage of the launched arrays. -/
theorem second_result (c : Dev nD) :
    (dat1 (V3 m ρ) c).arrAt 10 cfg1.N = Cert.ReferenceIdeal.Read.val_main_v119 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (Cert.KernelIdeal.KBlocks.final1 (V3 m ρ) c).trans ?_
  refine Eq.trans ?_ (Cert.RefRead.ref_out _ _ _ _ _ _ _ _ _ _ _ _ _ _ _ _ _ _).symm
  show upd (R := 100000) (K := 32) (N := 64) (V3 m ρ c main_v24) (V3 m ρ c main_v37) (V3 m ρ c main_arg12) (V3 m ρ c main_arg13)
      (V3 m ρ c main_arg14) (V3 m ρ c main_arg15) (V3 m ρ c main_arg16) (V3 m ρ c main_arg17) (V3 m ρ c main_arg18) (V3 m ρ c main_arg19) = _
  rw [Cert.KernelIdeal.KFold.V3_v24 m ρ c, first_result m ρ c, Cert.KernelIdeal.KAgg.mean1 m ρ c (first_result m ρ c),
    Cert.KernelIdeal.KFold.V3_arg12 m ρ c, Cert.KernelIdeal.KFold.V3_arg13 m ρ c, Cert.KernelIdeal.KFold.V3_arg14 m ρ c,
    Cert.KernelIdeal.KFold.V3_arg15 m ρ c, Cert.KernelIdeal.KFold.V3_arg16 m ρ c, Cert.KernelIdeal.KFold.V3_arg17 m ρ c,
    Cert.KernelIdeal.KFold.V3_arg18 m ρ c, Cert.KernelIdeal.KFold.V3_arg19 m ρ c]

/-- THE KERNEL'S RUN with its results named: every weakly fair execution terminates, nothing faulting, with the two
    result arrays at the reference's two result stages of the launched arrays and the arguments as launched. -/
theorem run : θ_run defs (onTc (τ := τ) (main (F := Ideal))) ⟨m, fun _ => 0, ρ⟩ (fun r => ∀ c : Dev nD,
      r.2.mem ((c.tc : Thread nD τ).loc main_v24) = Cert.ReferenceIdeal.Read.val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v38) = Cert.ReferenceIdeal.Read.val_main_v119 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c main_v24 (by decide)).trans ((Cert.KernelIdeal.KFold.last_v24 m ρ c).trans (first_result m ρ c)),
     (h c main_v38 (by decide)).trans ((Cert.KernelIdeal.KFold.last_v38 m ρ c).trans (second_result m ρ c)),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c),
     (h c main_arg8 (by decide)).trans (W4_main_arg8 m ρ c),
     (h c main_arg9 (by decide)).trans (W4_main_arg9 m ρ c),
     (h c main_arg10 (by decide)).trans (W4_main_arg10 m ρ c),
     (h c main_arg11 (by decide)).trans (W4_main_arg11 m ρ c),
     (h c main_arg12 (by decide)).trans (W4_main_arg12 m ρ c),
     (h c main_arg13 (by decide)).trans (W4_main_arg13 m ρ c),
     (h c main_arg14 (by decide)).trans (W4_main_arg14 m ρ c),
     (h c main_arg15 (by decide)).trans (W4_main_arg15 m ρ c),
     (h c main_arg16 (by decide)).trans (W4_main_arg16 m ρ c),
     (h c main_arg17 (by decide)).trans (W4_main_arg17 m ρ c),
     (h c main_arg18 (by decide)).trans (W4_main_arg18 m ρ c),
     (h c main_arg19 (by decide)).trans (W4_main_arg19 m ρ c)⟩)
    (Cert.KernelIdeal.KRun.run_last m ρ)

end Cert.KernelIdeal.KValue

end
-- ==== Proof.lean ====
/-
  The certificate of a two-layer gated graph convolution whose dense node updates run as two pipelined kernels.

  Each layer forms, per node, the mean of its in-neighbours' rows and its own (a gather, a scatter-add and a division, on
  the host in both programs), then updates the node's row: self + max(first·gate + second·(1 − gate), 0), where first and
  second are dense maps of the mean, self a dense map of the node's row, and gate the logistic function of an inner
  product of the node's row. The kernel tiles the nodes by 5000 rows, truncates matrix operands to bf16 and spells the
  gate's inner product as a lane sum and the sigmoid as one logistic operation; the reference uses whole matrix products
  and spells the sigmoid 1/(1 + e⁻ᶻ). On the extended reals a change of float format is the identity and both spellings
  of each sum and of the sigmoid denote the same number, so the two programs compute the same two arrays; no law used
  needs the inputs finite.

  The three frames: the kernel programs' are the generated launch proofs; the reference's is its generated run with the
  results dropped. The ideal pass rewrote nothing, so the idealization claim is trivial. The equality of results joins
  the kernel's run, read at its two result arrays (tiles to arrays, then the layer at an entry), with the reference's
  run read entry by entry against the same layer function.
-/
import proofs.«157271_j89601607729377_1_alg».proof.Defs
import proofs.«157271_j89601607729377_1_alg».proof.Proof.Gen.Kernel
import proofs.«157271_j89601607729377_1_alg».proof.Proof.Gen.Kernel.Skeleton
import proofs.«157271_j89601607729377_1_alg».proof.Proof.Gen.Kernel.Launch
import proofs.«157271_j89601607729377_1_alg».proof.Proof.Gen.Kernel.Points
import proofs.«157271_j89601607729377_1_alg».proof.Proof.Gen.Kernel.Frame
import proofs.«157271_j89601607729377_1_alg».proof.Proof.Gen.KernelIdeal
import proofs.«157271_j89601607729377_1_alg».proof.Proof.Gen.KernelIdeal.Skeleton
import proofs.«157271_j89601607729377_1_alg».proof.Proof.Gen.KernelIdeal.Launch
import proofs.«157271_j89601607729377_1_alg».proof.Proof.Gen.KernelIdeal.Points
import proofs.«157271_j89601607729377_1_alg».proof.Proof.Gen.KernelIdeal.Frame
import proofs.«157271_j89601607729377_1_alg».proof.Proof.Gen.ReferenceIdeal
import proofs.«157271_j89601607729377_1_alg».proof.Proof.Gen.ReferenceIdeal.Run
import proofs.«157271_j89601607729377_1_alg».proof.Proof.Gen.ReferenceIdeal.Read
import proofs.«157271_j89601607729377_1_alg».proof.Proof.Gen.Pre_finite_inputs
import proofs.«157271_j89601607729377_1_alg».proof.Proof.KValue
import Idealize.ShloMosaic.Adequacy
import Idealize.ShloMosaic.Init

set_option maxRecDepth 16384

noncomputable section

namespace Cert.Proof

open Idealize.ShloMosaic Idealize.SL.Sem

/-- The word-level kernel terminates, nothing faulting, its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- On the extended reals the kernel's two result arrays and the reference's are the same functions of arguments that
    agree: both runs end at the reference's two result stages of the kernel's launched arrays. -/
theorem algebraic : Cert.algebraic_KernelIdeal_ReferenceIdeal := by
  intro m ρ m' ρ' _ hagree
  refine ⟨fun c => Cert.ReferenceIdeal.Read.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v64_eq, (hagree c).1, (hagree c).2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
  · rw [Cert.ReferenceIdeal.Read.val_main_v119_eq, (hagree c).1, (hagree c).2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
